-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1024 : Shape := ⟨2, ![100000, 1024]⟩
abbrev S2x1600000 : Shape := ⟨2, ![2, 1600000]⟩
abbrev S1024x64 : Shape := ⟨2, ![1024, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x1024 : Shape := ⟨2, ![64, 1024]⟩
abbrev S1024 : Shape := ⟨1, ![1024]⟩
abbrev S_ : Shape := ⟨0, ![]⟩

class Facts : Prop where
  bcast_S_S100000x1024 : S_.BroadcastsInDim S100000x1024 (![] : Fin 0 → Fin S100000x1024.rank)
  reducesTo_S100000x1024_S_d0_1 : S100000x1024.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64x1024 : S_.BroadcastsInDim S64x1024 (![] : Fin 0 → Fin S64x1024.rank)
  reducesTo_S64x1024_S_d0_1 : S64x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S64x1024 .f32) (main_arg9 : FVec F S1024 .f32) (main_v33 : IVec S_ 1) : IVec S_ 1 :=
  let main_v34 : FVec F S64x1024 .f32 := Host.absf main_arg8
  let main_cst_12 : FVec F S_ .f32 := constant S_ .f32 0x7F800000#32
  let main_v35 : FVec F S64x1024 .f32 := broadcastInDim S64x1024 ![] bcast_S_S64x1024 main_cst_12
  let main_v36 : IVec S64x1024 1 := cmpf .olt main_v34 main_v35
  let main_c_13 : IVec S_ 1 := constantI S_ 1 1#1
  let main_v37 : IVec S_ 1 := (fun x v => Host.reduce IntOp.andi x v reducesTo_S64x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg5 : FVec F S32 .f32) (main_arg6 : FVec F S32x64 .f32) (main_arg7 : FVec F S64 .f32) (main_arg8 : FVec F S64x1024 .f32) (main_arg9 : FVec F S1024 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x1024 .f32) (main_arg1 : IVec S2x1600000 32) (main_arg2 : FVec F S1024x64 .f32) (main_arg3 : FVec F S64 .f32) (main_arg4 : FVec F S64x32 .f32) (main_arg5 : FVec F S32 .f32) (main_arg6 : FVec F S32x64 .f32) (main_arg7 : FVec F S64 .f32) (main_arg8 : FVec F S64x1024 .f32) (main_arg9 : FVec F S1024 .f32) : IVec S_ 1 :=
  let main_v0 : FVec F S100000x1024 .f32 := Host.absf main_arg0
  let main_cst : FVec F S_ .f32 := constant S_ .f32 0x7F800000#32
  let main_v1 : FVec F S100000x1024 .f32 := broadcastInDim S100000x1024 ![] bcast_S_S100000x1024 main_cst
  let main_v2 : IVec S100000x1024 1 := cmpf .olt main_v0 main_v1
  let main_c : IVec S_ 1 := constantI S_ 1 1#1
  let main_v3 : IVec S_ 1 := (fun x v => Host.reduce IntOp.andi x v reducesTo_S100000x1024_S_d0_1 h_S_) main_v2 main_c
  let main_v4 : FVec F S1024x64 .f32 := Host.absf main_arg2
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_v13 main_v16
-- ==== Kernel.lean ====
abbrev S100000x1024 : Shape := ⟨2, ![100000, 1024]⟩
abbrev S2x1600000 : Shape := ⟨2, ![2, 1600000]⟩
abbrev S1024x64 : Shape := ⟨2, ![1024, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x1024 : Shape := ⟨2, ![64, 1024]⟩
abbrev S1024 : Shape := ⟨1, ![1024]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x1024 : Shape := ⟨2, ![2000, 1024]⟩
abbrev S2000x64 : Shape := ⟨2, ![2000, 64]⟩
abbrev S1700000x64 : Shape := ⟨2, ![1700000, 64]⟩
abbrev S1x64 : Shape := ⟨2, ![1, 64]⟩
abbrev S100000x32 : Shape := ⟨2, ![100000, 32]⟩
abbrev S2000x32 : Shape := ⟨2, ![2000, 32]⟩
abbrev S1700000x32 : Shape := ⟨2, ![1700000, 32]⟩
abbrev S1x32 : Shape := ⟨2, ![1, 32]⟩
abbrev S1x1024 : Shape := ⟨2, ![1, 1024]⟩

abbrev nBuf : Space → Nat
  | .hbm => 97
  | .vmem => 22
  | .smem => 0
  | _ => 0

abbrev bufTy : (tb : Table) → Fin (tcTables nBuf tb) → BufTy
  | .hbm, ⟨0, _⟩ => ⟨S100000x1024, .f32⟩
  | .hbm, ⟨1, _⟩ => ⟨S2x1600000, .i32⟩
  | .hbm, ⟨2, _⟩ => ⟨S1024x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S64x1024, .f32⟩
  | .hbm, ⟨9, _⟩ => ⟨S1024, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x32, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x32, .f32⟩
  | .hbm, ⟨83, _⟩ => ⟨S1700000x1, .f32⟩
  | .hbm, ⟨84, _⟩ => ⟨S1700000x32, .f32⟩
  | .hbm, ⟨85, _⟩ => ⟨S1700000x32, .f32⟩
  | .hbm, ⟨86, _⟩ => ⟨S_, .f32⟩
  | .hbm, ⟨87, _⟩ => ⟨S100000x32, .f32⟩
  | .hbm, ⟨88, _⟩ => ⟨S1700000x1, .i32⟩
  | .hbm, ⟨89, _⟩ => ⟨S100000x32, .f32⟩
  | .hbm, ⟨90, _⟩ => ⟨S1x32, .f32⟩
  | .hbm, ⟨91, _⟩ => ⟨S100000x32, .f32⟩
  | .hbm, ⟨92, _⟩ => ⟨S100000x32, .f32⟩
  | .hbm, ⟨93, _⟩ => ⟨S1x64, .f32⟩
  | .hbm, ⟨94, _⟩ => ⟨S100000x64, .f32⟩
  | .hbm, ⟨95, _⟩ => ⟨S1x1024, .f32⟩
  | .hbm, ⟨96, _⟩ => ⟨S100000x1024, .f32⟩
  | .local _ .vmem, ⟨0, _⟩ => ⟨S2000x1024, .f32⟩
  | .local _ .vmem, ⟨1, _⟩ => ⟨S2000x1024, .f32⟩
  | .local _ .vmem, ⟨2, _⟩ => ⟨S1024x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S32x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S64x1024, .f32⟩
  | .local _ .vmem, ⟨19, _⟩ => ⟨S1x1024, .f32⟩
  | .local _ .vmem, ⟨20, _⟩ => ⟨S2000x1024, .f32⟩
  | .local _ .vmem, ⟨21, _⟩ => ⟨S2000x1024, .f32⟩
  | _, _ => ⟨S100000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S2000x64_S2000x64 : S2000x64.ShapeCasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S64_S1x64 : S64.ShapeCasts S1x64
  shapeCasts_S2000x32_S2000x32 : S2000x32.ShapeCasts S2000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S1024_S1x1024 : S1024.ShapeCasts S1x1024
  inb_S64x1024_S64x1024_0_0 : ∀ a, (![0, 0] : Fin 2 → Nat) a + S64x1024.size a ≤ S64x1024.size a
  h_S64x1024 : 0 < S64x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x1024_S1024x64_S2000x64_1_0_0_1_n_n_wf : DotDims.WF S2000x1024 S1024x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x32_S2000x32_1_0_0_1_n_n_wf : DotDims.WF S2000x64 S64x32 S2000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S2000x32_S32x64_S2000x64_1_0_0_1_n_n_wf : DotDims.WF S2000x32 S32x64 S2000x64 [1] [0] [0] [1] [] []
  dot_S2000x64_S64x1024_S2000x1024_1_0_0_1_n_n_wf : DotDims.WF S2000x64 S64x1024 S2000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S100000x1024.size a
  hwx0_0 : ∀ i : grid0.Coords, EltTy.bits .f32 = 32 ∨ (Rect.block (s := S100000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S100000x32.size a
  hwx1_2 : ∀ i : grid1.Coords, EltTy.bits .f32 = 32 ∨ (Rect.block (s := S100000x32) S2000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x1024.size a ≤ S64x1024.size a
  hwx3_1 : ∀ i : grid3.Coords, EltTy.bits .f32 = 32 ∨ (Rect.block (s := S64x1024) S64x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1024.size a ≤ S100000x1024.size a
  hwx3_3 : ∀ i : grid3.Coords, EltTy.bits .f32 = 32 ∨ (Rect.block (s := S100000x1024) S2000x1024.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x1024_S1024x64_S2000x64_1_0_0_1_n_n : DotDims S2000x1024 S1024x64 S2000x64 where
  lhsContracting := [1]
  rhsContracting := [0]
  lhsNonContracting := [0]
  rhsNonContracting := [1]
  lhsBatch := []
  rhsBatch := []
  wf := dot_S2000x1024_S1024x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def dot_S2000x64_S64x1024_S2000x1024_1_0_0_1_n_n : DotDims S2000x64 S64x1024 S2000x1024 where
  lhsContracting := [1]
  rhsContracting := [0]
  lhsNonContracting := [0]
  rhsNonContracting := [1]
  lhsBatch := []
  rhsBatch := []
  wf := dot_S2000x64_S64x1024_S2000x1024_1_0_0_1_n_n_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v66) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S2000x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x1024 : Shape := ⟨2, ![100000, 1024]⟩
abbrev S2x1600000 : Shape := ⟨2, ![2, 1600000]⟩
abbrev S1024x64 : Shape := ⟨2, ![1024, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x1024 : Shape := ⟨2, ![64, 1024]⟩
abbrev S1024 : Shape := ⟨1, ![1024]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S1x1024 : Shape := ⟨2, ![1, 1024]⟩

abbrev nBuf : Space → Nat
  | .hbm => 143
  | .vmem => 0
  | .smem => 0
  | _ => 0

abbrev hbmTy0_0 (i : Nat) : BufTy := match i % 128 with
  | 0 => ⟨S100000x1024, .f32⟩
  | 1 => ⟨S2x1600000, .i32⟩
  | 2 => ⟨S1024x64, .f32⟩
  | 3 => ⟨S64, .f32⟩
  | 4 => ⟨S64x32, .f32⟩
  | 5 => ⟨S32, .f32⟩
  | 6 => ⟨S32x64, .f32⟩
  | 7 => ⟨S64, .f32⟩
  | 8 => ⟨S64x1024, .f32⟩
  | 9 => ⟨S1024, .f32⟩
  | 10 => ⟨S1x1600000, .i32⟩
  | 11 => ⟨S1600000, .i32⟩
  | 12 => ⟨S1x1600000, .i32⟩
  | 13 => ⟨S1600000, .i32⟩
  | 14 => ⟨S100000, .i32⟩
  | 15 => ⟨S1700000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000, .i32⟩
  | 74 => ⟨S1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S100000x32, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x32, .f32⟩
  | 119 => ⟨S1700000x1, .f32⟩
  | 120 => ⟨S1700000x32, .f32⟩
  | 121 => ⟨S1700000x32, .f32⟩
  | 122 => ⟨S_, .f32⟩
  | 123 => ⟨S100000x32, .f32⟩
  | 124 => ⟨S1700000x1, .i32⟩
  | 125 => ⟨S100000x32, .f32⟩
  | 126 => ⟨S1x32, .f32⟩
  | 127 => ⟨S100000x32, .f32⟩
  | _ => ⟨S100000x1024, .f32⟩

abbrev hbmTy0_1 (i : Nat) : BufTy := match i % 128 with
  | 0 => ⟨S100000x32, .f32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S100000x1024, .f32⟩
  | 9 => ⟨S1x1024, .f32⟩
  | 10 => ⟨S100000x1024, .f32⟩
  | 11 => ⟨S100000x1024, .f32⟩
  | 12 => ⟨S_, .f32⟩
  | 13 => ⟨S100000x1024, .f32⟩
  | 14 => ⟨S100000x1024, .f32⟩
  | _ => ⟨S100000x1024, .f32⟩

abbrev hbmTy (i : Nat) : BufTy := match i / 128 with
  | 0 => hbmTy0_0 i
  | 1 => hbmTy0_1 i
  | _ => ⟨S100000x1024, .f32⟩

abbrev bufTy : (tb : Table) → Fin (tcTables nBuf tb) → BufTy
  | .hbm, ⟨i, _⟩ => hbmTy i
  | _, _ => ⟨S100000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v58 : Ref sig .tc := ⟨.hbm, 89, rfl⟩
abbrev main_c_13 : Ref sig .tc := ⟨.hbm, 90, rfl⟩
abbrev main_v59 : Ref sig .tc := ⟨.hbm, 91, rfl⟩
abbrev main_v60 : Ref sig .tc := ⟨.hbm, 92, rfl⟩
abbrev main_c_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_15 : Ref sig .tc := ⟨.hbm, 99, rfl⟩
abbrev main_v66 : Ref sig .tc := ⟨.hbm, 100, rfl⟩
abbrev main_v67 : Ref sig .tc := ⟨.hbm, 101, rfl⟩
abbrev main_c_16 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_17 : Ref sig .tc := ⟨.hbm, 110, rfl⟩
abbrev main_v75 : Ref sig .tc := ⟨.hbm, 111, rfl⟩
abbrev main_v76 : Ref sig .tc := ⟨.hbm, 112, rfl⟩
abbrev main_c_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call3_cst : Ref sig .tc := ⟨.hbm, 133, rfl⟩
abbrev main_call3_v0 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_call4_cst : Ref sig .tc := ⟨.hbm, 140, rfl⟩
abbrev main_call4_v0 : Ref sig .tc := ⟨.hbm, 141, rfl⟩
abbrev main_v100 : Ref sig .tc := ⟨.hbm, 142, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1024_S1x1024_1 : S1024.BroadcastsInDim S1x1024 (![1] : Fin 1 → Fin S1x1024.rank)
  bcast_S1x1024_S100000x1024_0_1 : S1x1024.BroadcastsInDim S100000x1024 (![0, 1] : Fin 2 → Fin S100000x1024.rank)
  bcast_S_S100000x1024 : S_.BroadcastsInDim S100000x1024 (![] : Fin 0 → Fin S100000x1024.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x1024_S1024x64_S100000x64_1_0_0_1_n_n_wf : DotDims.WF S100000x1024 S1024x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x64_S100000x64_1_0_0_1_n_n_wf : DotDims.WF S100000x32 S32x64 S100000x64 [1] [0] [0] [1] [] []
  dot_S100000x64_S64x1024_S100000x1024_1_0_0_1_n_n_wf : DotDims.WF S100000x64 S64x1024 S100000x1024 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x1024_S1024x64_S100000x64_1_0_0_1_n_n : DotDims S100000x1024 S1024x64 S100000x64 where
  lhsContracting := [1]
  rhsContracting := [0]
  lhsNonContracting := [0]
  rhsNonContracting := [1]
  lhsBatch := []
  rhsBatch := []
  wf := dot_S100000x1024_S1024x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x1024_S100000x1024_1_0_0_1_n_n : DotDims S100000x64 S64x1024 S100000x1024 where
  lhsContracting := [1]
  rhsContracting := [0]
  lhsNonContracting := [0]
  rhsNonContracting := [1]
  lhsBatch := []
  rhsBatch := []
  wf := dot_S100000x64_S64x1024_S100000x1024_1_0_0_1_n_n_wf

class Facts : Prop extends Facts₀ where

variable [Facts]
-- ==== Proof.KernelFold.lean ====
/-
  The idealized kernel program's run with its RESULT in the post, and the fold of buffer contents through @main read
  back, buffer by buffer, to the launch memory or to the previous region's output, in the words of the reference
  program's stages.
-/
import proofs.«112977_j38070590112103_1_alg».proof.Proof.Gen.KernelIdeal.Frame
import proofs.«112977_j38070590112103_1_alg».proof.Proof.RefReadP
import Idealize.ShloMosaic.Lib.StableHlo.Run
import Idealize.ShloMosaic.Lib.Pipeline.FrameSuffix

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A buffer that no operation of a stretch writes holds after the stretch what it held before: every operation of the
    literal list writes one buffer, and that buffer is another one. -/
local macro "stretch_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- Reads what is left of a stretch's results inside a joined pair of vectors: each operation's result at its own
    buffer is its function's value, and at another buffer what was there. -/
local macro "results_rw" : tactic =>
  `(tactic| repeat (first
      | rw [StableHlo.nullary_result] | rw [StableHlo.unary_result] | rw [StableHlo.binary_result]
      | rw [StableHlo.ternary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

section Run

variable {F : FTy → Type} [FloatOps F]
variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- At the compiled mesh, from any memory with zero counters, every weakly fair execution of @main on the TensorCores
    terminates, nothing faulting, and every final state has the result buffer at the last region's exit contents
    (the fold's last boundary read at the result) and the argument arrays as launched. -/
theorem run_out : θ_run defs (onTc (τ := τ) (main (F := F))) ⟨m, fun _ => 0, ρ⟩ (fun r => ∀ c : Dev nD,
      r.2.mem ((c.tc : Thread nD τ).loc main_v68) = W11 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v68 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Run

/-! ## Reading the fold: which boundary contents are which -/

section Walk

variable {F : FTy → Type} [FloatOps F]
variable (m : (ℓ : Loc nD τ sig) → Buf (Elt F) ℓ) (ρ : Dev nD → PrngReg)

/-! ### Each region's output array at the region's exit is what its write-backs leave -/

/-- Region 0's output array at its exit: the third window's array after all the region's points. -/
theorem W4_v30 (c : Dev nD) : W4 m ρ c (Proc.devRef .tc main_v30) = (dat0 (V3 m ρ) c).arrAt 2 cfg0.N := W4_arr m ρ c 2
/-- Region 1's output array at its exit: the third window's array after all the region's points. -/
theorem W7_v48 (c : Dev nD) : W7 m ρ c (Proc.devRef .tc main_v48) = (dat1 (V6 m ρ) c).arrAt 2 cfg1.N := W7_arr m ρ c 2
/-- Region 2's output array at its exit: the fourth window's array after all the region's points. -/
theorem W9_v66 (c : Dev nD) : W9 m ρ c (Proc.devRef .tc main_v66) = (dat2 (V8 m ρ) c).arrAt 3 cfg2.N := W9_arr m ρ c 3
/-- Region 3's output array (the program's result) at its exit: the fourth window's array after all the region's points. -/
theorem W11_v68 (c : Dev nD) : W11 m ρ c (Proc.devRef .tc main_v68) = (dat3 (V10 m ρ) c).arrAt 3 cfg3.N := W11_arr m ρ c 3

/-! ### Region 0's inputs are the launch memory's arguments -/

/-- Region 0 enters with the first argument as launched: no operation before it writes an argument. -/
theorem V3_main_arg0 (c : Dev nD) : V3 m ρ c main_arg0 = m ((c : Thread nD τ).loc main_arg0) :=
  calc W3 m ρ c (Proc.devRef .tc main_arg0)
    _ = W2 m ρ c (Proc.devRef .tc main_arg0) := by stretch_keeps hostOps0_2
    _ = W1 m ρ c (Proc.devRef .tc main_arg0) := by stretch_keeps hostOps0_1
    _ = W0 m ρ c (Proc.devRef .tc main_arg0) := by stretch_keeps hostOps0
    _ = m ((c : Thread nD τ).loc main_arg0) := rfl
/-- Region 0 enters with the third argument as launched: no operation before it writes an argument. -/
theorem V3_main_arg2 (c : Dev nD) : V3 m ρ c main_arg2 = m ((c : Thread nD τ).loc main_arg2) :=
  calc W3 m ρ c (Proc.devRef .tc main_arg2)
    _ = W2 m ρ c (Proc.devRef .tc main_arg2) := by stretch_keeps hostOps0_2
    _ = W1 m ρ c (Proc.devRef .tc main_arg2) := by stretch_keeps hostOps0_1
    _ = W0 m ρ c (Proc.devRef .tc main_arg2) := by stretch_keeps hostOps0
    _ = m ((c : Thread nD τ).loc main_arg2) := rfl

/-! ### Region 3's inputs -/

/-- The last stretch (one reshape of the last argument) leaves region 2's output where it was: region 3 enters with
    it. -/
theorem V10_v66 (c : Dev nD) (X : Buf (Elt F) ((c : Thread nD τ).loc main_v66))
    (h : W9 m ρ c (Proc.devRef .tc main_v66) = X) : V10 m ρ c main_v66 = X :=
  calc W10 m ρ c (Proc.devRef .tc main_v66)
    _ = W9 m ρ c (Proc.devRef .tc main_v66) := by stretch_keeps hostOps3
    _ = X := h
/-- The last argument is as launched when region 2 exits: nothing after that point writes it either, and it ends as
    launched. -/
theorem W9_main_arg9 (c : Dev nD) : W9 m ρ c (Proc.devRef .tc main_arg9) = m ((c : Thread nD τ).loc main_arg9) :=
  calc W9 m ρ c (Proc.devRef .tc main_arg9)
    _ = W10 m ρ c (Proc.devRef .tc main_arg9) := Eq.symm (by stretch_keeps hostOps3)
    _ = W11 m ρ c (Proc.devRef .tc main_arg9) := (W11_of_ne m ρ c main_arg9 (by decide)).symm
    _ = m ((c : Thread nD τ).loc main_arg9) := W11_main_arg9 m ρ c
/-- Region 3's third array at its entry: the last argument, a vector, recast as a one-row matrix. -/
theorem V10_v67 (c : Dev nD) :
    V10 m ρ c main_v67 = shapeCast S1x1024 (m ((c : Thread nD τ).loc main_arg9)) shapeCasts_S1024_S1x1024 := by
  show StableHlo.after hostOps3 (W9 m ρ c) (Proc.devRef .tc main_v67) = _
  after_results
  rw [W9_main_arg9 m ρ c]
  rfl
/-- Region 3 enters with the ninth argument as launched: the region only reads it. -/
theorem V10_main_arg8 (c : Dev nD) : V10 m ρ c main_arg8 = m ((c : Thread nD τ).loc main_arg8) :=
  calc W10 m ρ c (Proc.devRef .tc main_arg8)
    _ = W11 m ρ c (Proc.devRef .tc main_arg8) :=
        ((W11_arr m ρ c 1).trans (((dat3 (V10 m ρ) c).arrAt_in 1 rfl _).trans (A_eq3 (V10 m ρ) c 1))).symm
    _ = m ((c : Thread nD τ).loc main_arg8) := W11_main_arg8 m ρ c

end Walk

/-! ### Arguments read at the inner boundaries -/

section Args

variable {F : FTy → Type} [FloatOps F]
variable (m : (ℓ : Loc nD τ sig) → Buf (Elt F) ℓ) (ρ : Dev nD → PrngReg)

/-- The second argument at launch. -/
theorem W0_main_arg1 (c : Dev nD) : W0 m ρ c (Proc.devRef .tc main_arg1) = m ((c : Thread nD τ).loc main_arg1) := rfl

/-- The fourth argument is as launched when region 0 exits: nothing before writes it, and it is not
    one of the region's arrays. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by stretch_keeps hostOps0_2
    _ = W1 m ρ c (Proc.devRef .tc main_arg3) := by stretch_keeps hostOps0_1
    _ = W0 m ρ c (Proc.devRef .tc main_arg3) := by stretch_keeps hostOps0
    _ = m ((c : Thread nD τ).loc main_arg3) := rfl

/-- Region 1 enters with the fifth argument as launched: the region only reads it, and nothing after
    writes it. -/
theorem V6_main_arg4 (c : Dev nD) : V6 m ρ c main_arg4 = m ((c : Thread nD τ).loc main_arg4) :=
  calc W6 m ρ c (Proc.devRef .tc main_arg4)
    _ = W7 m ρ c (Proc.devRef .tc main_arg4) :=
        ((W7_arr m ρ c 1).trans (((dat1 (V6 m ρ) c).arrAt_in 1 rfl _).trans (A_eq1 (V6 m ρ) c 1))).symm
    _ = W8 m ρ c (Proc.devRef .tc main_arg4) := Eq.symm (by stretch_keeps hostOps2)
    _ = W9 m ρ c (Proc.devRef .tc main_arg4) := (W9_of_ne m ρ c main_arg4 (by decide)).symm
    _ = W10 m ρ c (Proc.devRef .tc main_arg4) := Eq.symm (by stretch_keeps hostOps3)
    _ = W11 m ρ c (Proc.devRef .tc main_arg4) := (W11_of_ne m ρ c main_arg4 (by decide)).symm
    _ = m ((c : Thread nD τ).loc main_arg4) := W11_main_arg4 m ρ c

/-- The sixth argument is as launched when region 1 exits. -/
theorem W7_main_arg5 (c : Dev nD) : W7 m ρ c (Proc.devRef .tc main_arg5) = m ((c : Thread nD τ).loc main_arg5) :=
  calc W7 m ρ c (Proc.devRef .tc main_arg5)
    _ = W8 m ρ c (Proc.devRef .tc main_arg5) := Eq.symm (by stretch_keeps hostOps2)
    _ = W9 m ρ c (Proc.devRef .tc main_arg5) := (W9_of_ne m ρ c main_arg5 (by decide)).symm
    _ = W10 m ρ c (Proc.devRef .tc main_arg5) := Eq.symm (by stretch_keeps hostOps3)
    _ = W11 m ρ c (Proc.devRef .tc main_arg5) := (W11_of_ne m ρ c main_arg5 (by decide)).symm
    _ = m ((c : Thread nD τ).loc main_arg5) := W11_main_arg5 m ρ c

/-- The eighth argument is as launched when region 1 exits. -/
theorem W7_main_arg7 (c : Dev nD) : W7 m ρ c (Proc.devRef .tc main_arg7) = m ((c : Thread nD τ).loc main_arg7) :=
  calc W7 m ρ c (Proc.devRef .tc main_arg7)
    _ = W8 m ρ c (Proc.devRef .tc main_arg7) := Eq.symm (by stretch_keeps hostOps2)
    _ = W9 m ρ c (Proc.devRef .tc main_arg7) := (W9_of_ne m ρ c main_arg7 (by decide)).symm
    _ = W10 m ρ c (Proc.devRef .tc main_arg7) := Eq.symm (by stretch_keeps hostOps3)
    _ = W11 m ρ c (Proc.devRef .tc main_arg7) := (W11_of_ne m ρ c main_arg7 (by decide)).symm
    _ = m ((c : Thread nD τ).loc main_arg7) := W11_main_arg7 m ρ c

/-- Region 2 enters with the seventh argument as launched: the region only reads it, and nothing after
    writes it. -/
theorem V8_main_arg6 (c : Dev nD) : V8 m ρ c main_arg6 = m ((c : Thread nD τ).loc main_arg6) :=
  calc W8 m ρ c (Proc.devRef .tc main_arg6)
    _ = W9 m ρ c (Proc.devRef .tc main_arg6) :=
        ((W9_arr m ρ c 1).trans (((dat2 (V8 m ρ) c).arrAt_in 1 rfl _).trans (A_eq2 (V8 m ρ) c 1))).symm
    _ = W10 m ρ c (Proc.devRef .tc main_arg6) := Eq.symm (by stretch_keeps hostOps3)
    _ = W11 m ρ c (Proc.devRef .tc main_arg6) := (W11_of_ne m ρ c main_arg6 (by decide)).symm
    _ = m ((c : Thread nD τ).loc main_arg6) := W11_main_arg6 m ρ c

/-- Region 2's third array at its entry: the eighth argument, a vector, recast as a one-row matrix. -/
theorem V8_v65 (c : Dev nD) :
    V8 m ρ c main_v65 = shapeCast S1x64 (m ((c : Thread nD τ).loc main_arg7)) shapeCasts_S64_S1x64 := by
  show StableHlo.after hostOps2 (W7 m ρ c) (Proc.devRef .tc main_v65) = _
  after_results
  rw [W7_main_arg7 m ρ c]
  rfl

/-! ### The index and normaliser buffers are not written after the first three stretches -/

/-- Region 0 leaves the first index vector as it found it: it is not one of the region's arrays. -/
theorem W4_v5 (c : Dev nD) : W4 m ρ c (Proc.devRef .tc main_v5) = W3 m ρ c (Proc.devRef .tc main_v5) :=
  W4_of_ne m ρ c main_v5 (by decide)
/-- Region 0 leaves the second index vector as it found it: it is not one of the region's arrays. -/
theorem W4_v6 (c : Dev nD) : W4 m ρ c (Proc.devRef .tc main_v6) = W3 m ρ c (Proc.devRef .tc main_v6) :=
  W4_of_ne m ρ c main_v6 (by decide)
/-- Region 0 leaves the per-edge normaliser as it found it: it is not one of the region's arrays. -/
theorem W4_v29 (c : Dev nD) : W4 m ρ c (Proc.devRef .tc main_v29) = W3 m ρ c (Proc.devRef .tc main_v29) :=
  W4_of_ne m ρ c main_v29 (by decide)
/-- At region 1's exit the first index vector is as at region 0's entry: neither region has it among its arrays and
    the two stretches between them do not write it. -/
theorem W7_v5 (c : Dev nD) : W7 m ρ c (Proc.devRef .tc main_v5) = W3 m ρ c (Proc.devRef .tc main_v5) :=
  calc W7 m ρ c (Proc.devRef .tc main_v5)
    _ = W6 m ρ c (Proc.devRef .tc main_v5) := W7_of_ne m ρ c main_v5 (by decide)
    _ = W5 m ρ c (Proc.devRef .tc main_v5) := by stretch_keeps hostOps1_1
    _ = W4 m ρ c (Proc.devRef .tc main_v5) := by stretch_keeps hostOps1
    _ = W3 m ρ c (Proc.devRef .tc main_v5) := W4_v5 m ρ c
/-- At region 1's exit the second index vector is as at region 0's entry: neither region has it among its arrays and
    the two stretches between them do not write it. -/
theorem W7_v6 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := by stretch_keeps hostOps1_1
    _ = W4 m ρ c (Proc.devRef .tc main_v6) := by stretch_keeps hostOps1
    _ = W3 m ρ c (Proc.devRef .tc main_v6) := W4_v6 m ρ c
/-- At region 1's exit the per-edge normaliser is as at region 0's entry: neither region has it among its arrays and
    the two stretches between them do not write it. -/
theorem W7_v29 (c : Dev nD) : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := by stretch_keeps hostOps1_1
    _ = W4 m ρ c (Proc.devRef .tc main_v29) := by stretch_keeps hostOps1
    _ = W3 m ρ c (Proc.devRef .tc main_v29) := W4_v29 m ρ c

end Args

/-! ## The stretches' results in the reference program's words

Each stretch's result buffer is read off the fold with the previous boundary's contents a VARIABLE valuation (so that
nothing earlier in the fold is opened), the buffers the stretch reads rewritten by what the earlier lemmas say they
hold, and what is left is the reference's stage function at the same arguments, by unfolding its definition. -/

section Stages

open Cert.ReferenceIdeal.ReadP (val_main_v5 val_main_v6 val_main_v12 val_main_v13 val_main_cst_2 val_main_v14
  val_main_v29 val_main_v30 val_main_v46 val_main_v47 val_main_v74 val_main_v90)

variable {F : FTy → Type} [FloatOps F]
variable (m : (ℓ : Loc nD τ sig) → Buf (Elt F) ℓ) (ρ : Dev nD → PrngReg)

/-! ### The first stretch: the two index vectors, and the degree vector's comparison and inverse square root -/

/-- After the first stretch the first index vector is the reference's: row 0 of the second argument followed by
    0 … 99999. -/
theorem W1_v5 (c : Dev nD) :
    W1 m ρ c (Proc.devRef .tc main_v5) = val_main_v5 (F := F) (m ((c : Thread nD τ).loc main_arg1)) := by
  have h1 := W0_main_arg1 m ρ c
  show StableHlo.after hostOps0 (W0 m ρ c) (Proc.devRef .tc main_v5) = _
  generalize W0 m ρ c = V at h1 ⊢
  after_results_simp
  results_rw
  rw [h1]
  rfl
/-- After the first stretch the second index vector is the reference's: row 1 of the second argument followed by
    0 … 99999. -/
theorem W1_v6 (c : Dev nD) :
    W1 m ρ c (Proc.devRef .tc main_v6) = val_main_v6 (F := F) (m ((c : Thread nD τ).loc main_arg1)) := by
  have h1 := W0_main_arg1 m ρ c
  show StableHlo.after hostOps0 (W0 m ρ c) (Proc.devRef .tc main_v6) = _
  generalize W0 m ρ c = V at h1 ⊢
  after_results_simp
  results_rw
  rw [h1]
  rfl
/-- After the first stretch: which entries of the scattered count vector are positive, as in the reference. -/
theorem W1_v12 (c : Dev nD) :
    W1 m ρ c (Proc.devRef .tc main_v12) = val_main_v12 (F := F) (m ((c : Thread nD τ).loc main_arg1)) := by
  have h1 := W0_main_arg1 m ρ c
  show StableHlo.after hostOps0 (W0 m ρ c) (Proc.devRef .tc main_v12) = _
  generalize W0 m ρ c = V at h1 ⊢
  after_results_simp
  results_rw
  rw [h1]
  rfl
/-- After the first stretch: the inverse square roots of the scattered count vector, as in the reference. -/
theorem W1_v13 (c : Dev nD) :
    W1 m ρ c (Proc.devRef .tc main_v13) = val_main_v13 (F := F) (m ((c : Thread nD τ).loc main_arg1)) := by
  have h1 := W0_main_arg1 m ρ c
  show StableHlo.after hostOps0 (W0 m ρ c) (Proc.devRef .tc main_v13) = _
  generalize W0 m ρ c = V at h1 ⊢
  after_results_simp
  results_rw
  rw [h1]
  rfl
/-- After the first stretch: the zero the selection falls back to. -/
theorem W1_cst_2 (c : Dev nD) : W1 m ρ c (Proc.devRef .tc main_cst_2) = val_main_cst_2 (F := F) := by
  show StableHlo.after hostOps0 (W0 m ρ c) (Proc.devRef .tc main_cst_2) = _
  generalize W0 m ρ c = V
  after_results_simp
  rfl

/-! ### The second stretch: the selection -/

/-- After the second stretch: the inverse square root where the count is positive and zero elsewhere, as in the
    reference. -/
theorem W2_v14 (c : Dev nD) :
    W2 m ρ c (Proc.devRef .tc main_v14) = val_main_v14 (F := F) (m ((c : Thread nD τ).loc main_arg1)) := by
  have h12 := W1_v12 m ρ c
  have h13 := W1_v13 m ρ c
  have hc := W1_cst_2 m ρ c
  show StableHlo.after hostOps0_1 (W1 m ρ c) (Proc.devRef .tc main_v14) = _
  generalize W1 m ρ c = V at h12 h13 hc ⊢
  after_results_simp
  rw [h12, h13, hc]
  rfl
/-- The second stretch does not write the first index vector. -/
theorem W2_v5 (c : Dev nD) :
    W2 m ρ c (Proc.devRef .tc main_v5) = val_main_v5 (F := F) (m ((c : Thread nD τ).loc main_arg1)) :=
  calc W2 m ρ c (Proc.devRef .tc main_v5)
    _ = W1 m ρ c (Proc.devRef .tc main_v5) := by stretch_keeps hostOps0_1
    _ = _ := W1_v5 m ρ c
/-- The second stretch does not write the second index vector. -/
theorem W2_v6 (c : Dev nD) :
    W2 m ρ c (Proc.devRef .tc main_v6) = val_main_v6 (F := F) (m ((c : Thread nD τ).loc main_arg1)) :=
  calc W2 m ρ c (Proc.devRef .tc main_v6)
    _ = W1 m ρ c (Proc.devRef .tc main_v6) := by stretch_keeps hostOps0_1
    _ = _ := W1_v6 m ρ c

/-! ### The third stretch: the per-edge normaliser -/

/-- At region 0's entry the first index vector is the reference's. -/
theorem W3_v5 (c : Dev nD) :
    W3 m ρ c (Proc.devRef .tc main_v5) = val_main_v5 (F := F) (m ((c : Thread nD τ).loc main_arg1)) :=
  calc W3 m ρ c (Proc.devRef .tc main_v5)
    _ = W2 m ρ c (Proc.devRef .tc main_v5) := by stretch_keeps hostOps0_2
    _ = _ := W2_v5 m ρ c
/-- At region 0's entry the second index vector is the reference's. -/
theorem W3_v6 (c : Dev nD) :
    W3 m ρ c (Proc.devRef .tc main_v6) = val_main_v6 (F := F) (m ((c : Thread nD τ).loc main_arg1)) :=
  calc W3 m ρ c (Proc.devRef .tc main_v6)
    _ = W2 m ρ c (Proc.devRef .tc main_v6) := by stretch_keeps hostOps0_2
    _ = _ := W2_v6 m ρ c
/-- At region 0's entry the per-edge normaliser — the product of the selected vector gathered at the two (wrapped)
    index vectors — is the reference's. -/
theorem W3_v29 (c : Dev nD) :
    W3 m ρ c (Proc.devRef .tc main_v29) = val_main_v29 (F := F) (m ((c : Thread nD τ).loc main_arg1)) := by
  have h14 := W2_v14 m ρ c
  have h5 := W2_v5 m ρ c
  have h6 := W2_v6 m ρ c
  show StableHlo.after hostOps0_2 (W2 m ρ c) (Proc.devRef .tc main_v29) = _
  generalize W2 m ρ c = V at h14 h5 h6 ⊢
  after_results_simp
  rw [h14, h5, h6]
  rfl

/-! ### Between regions 0 and 1: gather, scale, scatter-add, add the row, clamp below at zero -/

/-- After the stretch that follows region 0, given that the region's output is the reference's first product: the sum
    of the scatter-added scaled rows and the fourth argument's row, as in the reference. -/
theorem W5_v46 (c : Dev nD)
    (h : W4 m ρ c (Proc.devRef .tc main_v30)
      = val_main_v30 (F := F) (m ((c : Thread nD τ).loc main_arg0)) (m ((c : Thread nD τ).loc main_arg2))) :
    W5 m ρ c (Proc.devRef .tc main_v46)
      = val_main_v46 (F := F) (m ((c : Thread nD τ).loc main_arg0)) (m ((c : Thread nD τ).loc main_arg1))
          (m ((c : Thread nD τ).loc main_arg2)) (m ((c : Thread nD τ).loc main_arg3)) := by
  have h5 := (W4_v5 m ρ c).trans (W3_v5 m ρ c)
  have h6 := (W4_v6 m ρ c).trans (W3_v6 m ρ c)
  have h29 := (W4_v29 m ρ c).trans (W3_v29 m ρ c)
  have h3 := W4_main_arg3 m ρ c
  show StableHlo.after hostOps1 (W4 m ρ c) (Proc.devRef .tc main_v46) = _
  generalize W4 m ρ c = V at h h5 h6 h29 h3 ⊢
  after_results_simp
  rw [h, h5, h6, h29, h3]
  rfl
/-- Region 1 enters, given that region 0's output is the reference's first product, with the reference's first
    layer output. -/
theorem V6_v47 (c : Dev nD)
    (h : W4 m ρ c (Proc.devRef .tc main_v30)
      = val_main_v30 (F := F) (m ((c : Thread nD τ).loc main_arg0)) (m ((c : Thread nD τ).loc main_arg2))) :
    V6 m ρ c main_v47
      = val_main_v47 (F := F) (m ((c : Thread nD τ).loc main_arg0)) (m ((c : Thread nD τ).loc main_arg1))
          (m ((c : Thread nD τ).loc main_arg2)) (m ((c : Thread nD τ).loc main_arg3)) := by
  have h46 := W5_v46 m ρ c h
  show StableHlo.after hostOps1_1 (W5 m ρ c) (Proc.devRef .tc main_v47) = _
  generalize W5 m ρ c = V at h46 ⊢
  after_results_simp
  rw [h46]
  rfl

/-! ### Between regions 1 and 2: the same with the second product -/

/-- Region 2 enters, given that region 1's output is the reference's second product, with the reference's second
    layer output (the reference recomputes the index vectors and the normaliser; they are the same functions). -/
theorem V8_v64 (c : Dev nD)
    (h : W7 m ρ c (Proc.devRef .tc main_v48)
      = val_main_v74 (F := F) (m ((c : Thread nD τ).loc main_arg0)) (m ((c : Thread nD τ).loc main_arg1))
          (m ((c : Thread nD τ).loc main_arg2)) (m ((c : Thread nD τ).loc main_arg3)) (m ((c : Thread nD τ).loc main_arg4))) :
    V8 m ρ c main_v64
      = val_main_v90 (F := F) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  have h5 := (W7_v5 m ρ c).trans (W3_v5 m ρ c)
  have h6 := (W7_v6 m ρ c).trans (W3_v6 m ρ c)
  have h29 := (W7_v29 m ρ c).trans (W3_v29 m ρ c)
  have ha5 := W7_main_arg5 m ρ c
  show StableHlo.after hostOps2 (W7 m ρ c) (Proc.devRef .tc main_v64) = _
  generalize W7 m ρ c = V at h h5 h6 h29 ha5 ⊢
  after_results_simp
  rw [h, h5, h6, h29, ha5]
  rfl

end Stages

end Cert.KernelIdeal.Fold

end
-- ==== Proof.LibPlainDot.lean ====
/-
  A plain matrix product read at an entry.  For a dot whose left operand is [a, k], whose right operand is
  [k, b] and whose result is [a, b], with the one contracted axis the left's second and the right's first,
  the sum over the contraction index is the sum over `j : Fin k` of `l (i₀, j) * r (j, i₁)`.  The coordinate facts
  of the dimension record are hypotheses, so the lemma serves any such record: a kernel's `tpu.matmul` into a zero
  accumulator on a block of rows and the host's `dot_general` on the whole array are then the same sum, row by row.
-/
import Idealize.ShloMosaic.Lib.ValueIdx
import Idealize.ShloMosaic.PureOps.Ideal.Laws

noncomputable section

namespace Cert.Lib.PlainDot

open Idealize.ShloMosaic Idealize.ShloMosaic.ValueIdx

/-- Row `i₀` of `l` against column `i₁` of `r`: the entry of the matrix product on the extended reals. -/
def rowsTimes {a k b : Nat} (l : (⟨2, ![a, k]⟩ : Shape).Idx → EReal) (r : (⟨2, ![k, b]⟩ : Shape).Idx → EReal) :
    (⟨2, ![a, b]⟩ : Shape).Idx → EReal :=
  fun i => ∑ j : Fin k, l (ix2 (i 0) j) * r (ix2 j (i 1))

/-- The contraction sum of a plain dot, re-indexed by the contracted axis' coordinate. -/
theorem sum_contr {a k b : Nat} (d : DotDims (⟨2, ![a, k]⟩ : Shape) (⟨2, ![k, b]⟩ : Shape) (⟨2, ![a, b]⟩ : Shape))
    (hr : d.contr.rank = 1) (hs : d.contr.size ⟨0, by omega⟩ = k)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (l : (⟨2, ![a, k]⟩ : Shape).Idx → EReal) (r : (⟨2, ![k, b]⟩ : Shape).Idx → EReal) (i : (⟨2, ![a, b]⟩ : Shape).Idx) :
    ∑ q : d.contr.Idx, l (d.lhsIdx i q) * r (d.rhsIdx i q) = rowsTimes l r i := by
  unfold rowsTimes
  rw [← Equiv.sum_comp (contrEquiv1 d k hr hs).symm]
  refine Finset.sum_congr rfl fun j _ => ?_
  have hj := contrEquiv1_symm_val d k hr hs j
  have el : d.lhsIdx i ((contrEquiv1 d k hr hs).symm j) = ix2 (i 0) j := funext fun x => Fin.ext (by
    match x with
    | ⟨0, _⟩ => exact l0 _ _
    | ⟨1, _⟩ => exact (l1 _ _).trans hj)
  have er : d.rhsIdx i ((contrEquiv1 d k hr hs).symm j) = ix2 j (i 1) := funext fun x => Fin.ext (by
    match x with
    | ⟨0, _⟩ => exact (r0 _ _).trans hj
    | ⟨1, _⟩ => exact r1 _ _)
  rw [el, er]
  rfl

/-- A matrix product accumulated into the zero block is the product's entry. -/
theorem matmul_zero_apply {a k b : Nat} {φ₁ φ₂ : FTy}
    (d : DotDims (⟨2, ![a, k]⟩ : Shape) (⟨2, ![k, b]⟩ : Shape) (⟨2, ![a, b]⟩ : Shape))
    (hr : d.contr.rank = 1) (hs : d.contr.size ⟨0, by omega⟩ = k)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (l : FVec Ideal (⟨2, ![a, k]⟩ : Shape) φ₁) (r : FVec Ideal (⟨2, ![k, b]⟩ : Shape) φ₂)
    (i : (⟨2, ![a, b]⟩ : Shape).Idx) :
    FloatOps.matmul d prec l r (constant (F := Ideal) (⟨2, ![a, b]⟩ : Shape) .f32 0x00000000#32) i = rowsTimes l r i :=
  (Ideal.matmul_constant_zero_apply d prec l r i).trans (sum_contr d hr hs l0 l1 r0 r1 l r i)

/-- The host's `dot_general` of the whole arrays is the same entry, whatever its schedule. -/
theorem dotGeneral_apply {a k b : Nat} {φ₁ φ₂ : FTy}
    (d : DotDims (⟨2, ![a, k]⟩ : Shape) (⟨2, ![k, b]⟩ : Shape) (⟨2, ![a, b]⟩ : Shape))
    (hr : d.contr.rank = 1) (hs : d.contr.size ⟨0, by omega⟩ = k)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (sched : HostSchedule)
    (l : FVec Ideal (⟨2, ![a, k]⟩ : Shape) φ₁) (r : FVec Ideal (⟨2, ![k, b]⟩ : Shape) φ₂) (i : (⟨2, ![a, b]⟩ : Shape).Idx) :
    FloatOps.dotGeneral d prec sched l r i = rowsTimes l r i :=
  (Ideal.dotGeneral_apply d prec sched l r i).trans (sum_contr d hr hs l0 l1 r0 r1 l r i)

end Cert.Lib.PlainDot

end
-- ==== Proof.Layer1Blocks.lean ====
/-
  The first graph layer's feature transform, x · Wg1, as the kernel computes it block by block.
  The pallas_call tiles the 100000 rows into 50 blocks of 2000; at block `t` the body multiplies rows
  `2000·t … 2000·t + 1999` of the left array by the whole [1024, 64] right array on the matrix unit, into a zero
  accumulator, and writes the [2000, 64] product back as rows `2000·t …` of the result.  On the extended reals the
  narrowing of the operands to bf16 is the identity, so entry (r, c) of block `t` is the sum over `j` of
  left (2000·t + r, j) · right (j, c): the blocks are the row blocks of ONE array, the matrix product `rowsTimes`
  of the two arrays as the region finds them, and the 50 blocks cover every row.
-/
import proofs.«112977_j38070590112103_1_alg».proof.Proof.Gen.KernelIdeal.Frame
import proofs.«112977_j38070590112103_1_alg».proof.Proof.LibPlainDot
import Idealize.ShloMosaic.Lib.Pipeline.Value
import Idealize.ShloMosaic.Lib.ValueIdx
import Idealize.ShloMosaic.PureOps.Ideal.Laws

noncomputable section

namespace Cert.KernelIdeal.Layer1

open Idealize.ShloMosaic Idealize.ShloMosaic.TcCoe Idealize.SL.Sem Idealize.ShloMosaic.ValueIdx
open Idealize.ShloMosaic.Pipeline (Dat)
open Cert.KernelIdeal Cert.KernelIdeal.Gen Cert.Lib.PlainDot

variable (V : (c : Dev nD) → (b : Ref sig .tc) → Buf (Elt Ideal) ((c : Thread nD τ).loc b))

theorem hz : (![0, 0] : Fin 2 → Nat) = fun _ => 0 := funext fun a => by fin_cases a <;> rfl

/-! ## The block product's operand indices -/

theorem lhs_0 (i : S2000x64.Idx) (q : dot_S2000x1024_S1024x64_S2000x64_1_0_0_1_n_n.contr.Idx) : (dot_S2000x1024_S1024x64_S2000x64_1_0_0_1_n_n.lhsIdx i q 0).val = (i 0).val := by
  unfold DotDims.lhsIdx
  rw [dif_neg (show ¬(0 : Fin S2000x1024.rank) ∈ dot_S2000x1024_S1024x64_S2000x64_1_0_0_1_n_n.lhsBatch by decide), dif_pos (show (0 : Fin S2000x1024.rank) ∈ dot_S2000x1024_S1024x64_S2000x64_1_0_0_1_n_n.lhsNonContracting by decide)]
  rfl
theorem lhs_1 (i : S2000x64.Idx) (q : dot_S2000x1024_S1024x64_S2000x64_1_0_0_1_n_n.contr.Idx) : (dot_S2000x1024_S1024x64_S2000x64_1_0_0_1_n_n.lhsIdx i q 1).val = (q ⟨0, by decide⟩).val :=
  dot_S2000x1024_S1024x64_S2000x64_1_0_0_1_n_n.lhsIdx_val_of_single rfl i q
theorem rhs_0 (i : S2000x64.Idx) (q : dot_S2000x1024_S1024x64_S2000x64_1_0_0_1_n_n.contr.Idx) : (dot_S2000x1024_S1024x64_S2000x64_1_0_0_1_n_n.rhsIdx i q 0).val = (q ⟨0, by decide⟩).val :=
  dot_S2000x1024_S1024x64_S2000x64_1_0_0_1_n_n.rhsIdx_val_of_single rfl i q
theorem rhs_1 (i : S2000x64.Idx) (q : dot_S2000x1024_S1024x64_S2000x64_1_0_0_1_n_n.contr.Idx) : (dot_S2000x1024_S1024x64_S2000x64_1_0_0_1_n_n.rhsIdx i q 1).val = (i 1).val := by
  unfold DotDims.rhsIdx
  rw [dif_neg (show ¬(1 : Fin S1024x64.rank) ∈ dot_S2000x1024_S1024x64_S2000x64_1_0_0_1_n_n.rhsBatch by decide), dif_pos (show (1 : Fin S1024x64.rank) ∈ dot_S2000x1024_S1024x64_S2000x64_1_0_0_1_n_n.rhsNonContracting by decide)]
  rfl

/-- What the body stores, at an entry: the block of rows times the right array. -/
theorem pay_apply (x0 : Vec Ideal S2000x1024 .f32) (x1 : Vec Ideal S1024x64 .f32) (j : S2000x64.Idx) :
    k0_pay1 (F := Ideal) x0 x1 j = rowsTimes (a := 2000) (k := 1024) (b := 64) x0 x1 j := by
  unfold k0_pay1
  refine (matmul_zero_apply dot_S2000x1024_S1024x64_S2000x64_1_0_0_1_n_n rfl rfl lhs_0 lhs_1 rhs_0 rhs_1 none _ _ j).trans ?_
  rfl

/-! ## The windows' index maps, decided over the grid -/

theorem idx_left : ∀ t : Fin cfg0.N, win0_0.index t (0 : Fin 2) = t.val ∧ win0_0.index t (1 : Fin 2) = 0 :=
  (by decide +kernel : ∀ t : Fin grid0.N, _)
theorem idx_right : ∀ t : Fin cfg0.N, win0_1.index t (0 : Fin 2) = 0 ∧ win0_1.index t (1 : Fin 2) = 0 :=
  (by decide +kernel : ∀ t : Fin grid0.N, _)
theorem idx_out : ∀ t : Fin cfg0.N, win0_2.index t (0 : Fin 2) = t.val ∧ win0_2.index t (1 : Fin 2) = 0 :=
  (by decide +kernel : ∀ t : Fin grid0.N, _)

/-! ## The input blocks as rows of the arrays -/

/-- The left window's block at point `t` is rows `2000·t …` of its array. -/
theorem left_apply (c : Dev nD) (t : Fin cfg0.N) (x : S2000x1024.Idx) (i : S100000x1024.Idx)
    (h0 : (i 0).val = 2000 * t.val + (x 0).val) (h1 : (i 1).val = (x 1).val) :
    (iblk0 V c 0 t : Vec Ideal S2000x1024 .f32) x = (V c main_arg0 : S100000x1024.Idx → EReal) i := by
  obtain ⟨e0, e1⟩ := idx_left t
  unfold iblk0
  rw [View.read_apply]
  show V c main_arg0 _ = V c main_arg0 _
  refine congrArg _ (funext fun a => Fin.ext ?_)
  match a with
  | ⟨0, _⟩ => show win0_0.index t 0 * 2000 + 1 * (x 0).val = (i 0).val; rw [e0, h0]; omega
  | ⟨1, _⟩ => show win0_0.index t 1 * 1024 + 1 * (x 1).val = (i 1).val; rw [e1, h1]; omega

/-- The right window's block is the whole right array at every point. -/
theorem right_apply (c : Dev nD) (t : Fin cfg0.N) (x : S1024x64.Idx) :
    (iblk0 V c 1 t : Vec Ideal S1024x64 .f32) x = (V c main_arg2 : S1024x64.Idx → EReal) x := by
  obtain ⟨e0, e1⟩ := idx_right t
  unfold iblk0
  rw [View.read_apply]
  show V c main_arg2 _ = V c main_arg2 _
  refine congrArg _ (funext fun a => Fin.ext ?_)
  match a with
  | ⟨0, _⟩ => show win0_1.index t 0 * 1024 + 1 * (x 0).val = (x 0).val; rw [e0]; omega
  | ⟨1, _⟩ => show win0_1.index t 1 * 64 + 1 * (x 1).val = (x 1).val; rw [e1]; omega

/-! ## The result array -/

/-- The product of the two arrays as the region finds them. -/
abbrev product (c : Dev nD) : S100000x64.Idx → EReal :=
  rowsTimes (a := 100000) (k := 1024) (b := 64) (V c main_arg0 : S100000x1024.Idx → EReal) (V c main_arg2 : S1024x64.Idx → EReal)

/-- What point `t` writes back is block `t` of the product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S2000x1024) hz, View.ld_unit_zero (S := S1024x64) hz]
  obtain ⟨e0, e1⟩ := idx_out t
  funext j
  refine (pay_apply (iblk0 V c 0 t) (iblk0 V c 1 t) j).trans ?_
  show rowsTimes (a := 2000) (k := 1024) (b := 64) _ _ j = rowsTimes (a := 100000) (k := 1024) (b := 64) _ _ (((cfg0.win 2).blk t).view.emb j)
  unfold rowsTimes
  refine Finset.sum_congr rfl fun k _ => ?_
  have hl : ((iblk0 V c 0 t : Vec Ideal S2000x1024 .f32) (ix2 (j 0) k) : EReal)
      = (V c main_arg0 : S100000x1024.Idx → EReal) (ix2 ((((cfg0.win 2).blk t).view.emb j) 0) k) :=
    left_apply V c t (ix2 (j 0) k) (ix2 ((((cfg0.win 2).blk t).view.emb j) 0) k)
      (by show win0_2.index t 0 * 2000 + 1 * (j 0).val = 2000 * t.val + (j 0).val; rw [e0]; omega) rfl
  have hc : (ix2 k (j 1) : S1024x64.Idx) = ix2 k ((((cfg0.win 2).blk t).view.emb j) 1) := by
    refine congrArg (ix2 k) (Fin.ext ?_)
    show (j 1).val = win0_2.index t 1 * 64 + 1 * (j 1).val; rw [e1]; omega
  have hr : ((iblk0 V c 1 t : Vec Ideal S1024x64 .f32) (ix2 k (j 1)) : EReal)
      = (V c main_arg2 : S1024x64.Idx → EReal) (ix2 k ((((cfg0.win 2).blk t).view.emb j) 1)) :=
    (right_apply V c t (ix2 k (j 1))).trans (congrArg (V c main_arg2 : S1024x64.Idx → EReal) hc)
  exact congrArg₂ (fun a b : EReal => a * b) hl hr

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v30).slice (win0_2.rect t)).set ↔ _
  rw [View.set_slice_whole, Rect.mem_set_unit]
  exact Iff.rfl

/-- Row `r` lies in block `r / 2000`: the blocks cover the result. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  refine ⟨⟨(i 0).val / 2000, by rw [hN]; omega⟩, flush0_2 _, ?_⟩
  rw [mem_blk]
  obtain ⟨e0, e1⟩ := idx_out ⟨(i 0).val / 2000, by rw [hN]; omega⟩
  intro a
  match a with
  | ⟨0, _⟩ => show win0_2.index _ 0 * 2000 ≤ (i 0).val ∧ (i 0).val < win0_2.index _ 0 * 2000 + 2000; rw [e0]; show (i 0).val / 2000 * 2000 ≤ (i 0).val ∧ (i 0).val < (i 0).val / 2000 * 2000 + 2000; omega
  | ⟨1, _⟩ => show win0_2.index _ 1 * 64 ≤ (i 1).val ∧ (i 1).val < win0_2.index _ 1 * 64 + 64; rw [e1]; omega

/-- THE RESULT ARRAY after the region: the matrix product of the two arrays the region was entered with. -/
theorem array_eq (c : Dev nD) : (dat0 V c).arrAt 2 cfg0.N = product V c :=
  (dat0 V c).arrAt_eq_of_cover 2 (product V c) (fun t _ => flushed_eq V c t) cover

end Cert.KernelIdeal.Layer1

end
-- ==== Proof.Layer2Blocks.lean ====
/-
  The second graph layer's feature transform, h · Wg2, as the kernel computes it block by block.
  The pallas_call tiles the 100000 rows into 50 blocks of 2000; at block `t` the body multiplies rows
  `2000·t … 2000·t + 1999` of the left array by the whole [64, 32] right array on the matrix unit, into a zero
  accumulator, and writes the [2000, 32] product back as rows `2000·t …` of the result.  On the extended reals the
  narrowing of the operands to bf16 is the identity, so entry (r, c) of block `t` is the sum over `j` of
  left (2000·t + r, j) · right (j, c): the blocks are the row blocks of ONE array, the matrix product `rowsTimes`
  of the two arrays as the region finds them, and the 50 blocks cover every row.
-/
import proofs.«112977_j38070590112103_1_alg».proof.Proof.Gen.KernelIdeal.Frame
import proofs.«112977_j38070590112103_1_alg».proof.Proof.LibPlainDot
import Idealize.ShloMosaic.Lib.Pipeline.Value
import Idealize.ShloMosaic.Lib.ValueIdx
import Idealize.ShloMosaic.PureOps.Ideal.Laws

noncomputable section

namespace Cert.KernelIdeal.Layer2

open Idealize.ShloMosaic Idealize.ShloMosaic.TcCoe Idealize.SL.Sem Idealize.ShloMosaic.ValueIdx
open Idealize.ShloMosaic.Pipeline (Dat)
open Cert.KernelIdeal Cert.KernelIdeal.Gen Cert.Lib.PlainDot

variable (V : (c : Dev nD) → (b : Ref sig .tc) → Buf (Elt Ideal) ((c : Thread nD τ).loc b))

theorem hz : (![0, 0] : Fin 2 → Nat) = fun _ => 0 := funext fun a => by fin_cases a <;> rfl

/-! ## The block product's operand indices -/

theorem lhs_0 (i : S2000x32.Idx) (q : dot_S2000x64_S64x32_S2000x32_1_0_0_1_n_n.contr.Idx) : (dot_S2000x64_S64x32_S2000x32_1_0_0_1_n_n.lhsIdx i q 0).val = (i 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
theorem lhs_1 (i : S2000x32.Idx) (q : dot_S2000x64_S64x32_S2000x32_1_0_0_1_n_n.contr.Idx) : (dot_S2000x64_S64x32_S2000x32_1_0_0_1_n_n.lhsIdx i q 1).val = (q ⟨0, by decide⟩).val :=
  dot_S2000x64_S64x32_S2000x32_1_0_0_1_n_n.lhsIdx_val_of_single rfl i q
theorem rhs_0 (i : S2000x32.Idx) (q : dot_S2000x64_S64x32_S2000x32_1_0_0_1_n_n.contr.Idx) : (dot_S2000x64_S64x32_S2000x32_1_0_0_1_n_n.rhsIdx i q 0).val = (q ⟨0, by decide⟩).val :=
  dot_S2000x64_S64x32_S2000x32_1_0_0_1_n_n.rhsIdx_val_of_single rfl i q
theorem rhs_1 (i : S2000x32.Idx) (q : dot_S2000x64_S64x32_S2000x32_1_0_0_1_n_n.contr.Idx) : (dot_S2000x64_S64x32_S2000x32_1_0_0_1_n_n.rhsIdx i q 1).val = (i 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-- What the body stores, at an entry: the block of rows times the right array. -/
theorem pay_apply (x0 : Vec Ideal S2000x64 .f32) (x1 : Vec Ideal S64x32 .f32) (j : S2000x32.Idx) :
    k1_pay1 (F := Ideal) x0 x1 j = rowsTimes (a := 2000) (k := 64) (b := 32) x0 x1 j := by
  unfold k1_pay1
  simp only [shapeCast_self]
  refine (matmul_zero_apply dot_S2000x64_S64x32_S2000x32_1_0_0_1_n_n rfl rfl lhs_0 lhs_1 rhs_0 rhs_1 none _ _ j).trans ?_
  rfl

/-! ## The windows' index maps, decided over the grid -/

theorem idx_left : ∀ t : Fin cfg1.N, win1_0.index t (0 : Fin 2) = t.val ∧ win1_0.index t (1 : Fin 2) = 0 :=
  (by decide +kernel : ∀ t : Fin grid1.N, _)
theorem idx_right : ∀ t : Fin cfg1.N, win1_1.index t (0 : Fin 2) = 0 ∧ win1_1.index t (1 : Fin 2) = 0 :=
  (by decide +kernel : ∀ t : Fin grid1.N, _)
theorem idx_out : ∀ t : Fin cfg1.N, win1_2.index t (0 : Fin 2) = t.val ∧ win1_2.index t (1 : Fin 2) = 0 :=
  (by decide +kernel : ∀ t : Fin grid1.N, _)

/-! ## The input blocks as rows of the arrays -/

/-- The left window's block at point `t` is rows `2000·t …` of its array. -/
theorem left_apply (c : Dev nD) (t : Fin cfg1.N) (x : S2000x64.Idx) (i : S100000x64.Idx)
    (h0 : (i 0).val = 2000 * t.val + (x 0).val) (h1 : (i 1).val = (x 1).val) :
    (iblk1 V c 0 t : Vec Ideal S2000x64 .f32) x = (V c main_v47 : S100000x64.Idx → EReal) i := by
  obtain ⟨e0, e1⟩ := idx_left t
  unfold iblk1
  rw [View.read_apply]
  show V c main_v47 _ = V c main_v47 _
  refine congrArg _ (funext fun a => Fin.ext ?_)
  match a with
  | ⟨0, _⟩ => show win1_0.index t 0 * 2000 + 1 * (x 0).val = (i 0).val; rw [e0, h0]; omega
  | ⟨1, _⟩ => show win1_0.index t 1 * 64 + 1 * (x 1).val = (i 1).val; rw [e1, h1]; omega

/-- The right window's block is the whole right array at every point. -/
theorem right_apply (c : Dev nD) (t : Fin cfg1.N) (x : S64x32.Idx) :
    (iblk1 V c 1 t : Vec Ideal S64x32 .f32) x = (V c main_arg4 : S64x32.Idx → EReal) x := by
  obtain ⟨e0, e1⟩ := idx_right t
  unfold iblk1
  rw [View.read_apply]
  show V c main_arg4 _ = V c main_arg4 _
  refine congrArg _ (funext fun a => Fin.ext ?_)
  match a with
  | ⟨0, _⟩ => show win1_1.index t 0 * 64 + 1 * (x 0).val = (x 0).val; rw [e0]; omega
  | ⟨1, _⟩ => show win1_1.index t 1 * 32 + 1 * (x 1).val = (x 1).val; rw [e1]; omega

/-! ## The result array -/

/-- The product of the two arrays as the region finds them. -/
abbrev product (c : Dev nD) : S100000x32.Idx → EReal :=
  rowsTimes (a := 100000) (k := 64) (b := 32) (V c main_v47 : S100000x64.Idx → EReal) (V c main_arg4 : S64x32.Idx → EReal)

/-- What point `t` writes back is block `t` of the product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero hz]
  simp only [View.ld_unit_zero (S := S2000x64) hz, View.ld_unit_zero (S := S64x32) hz]
  obtain ⟨e0, e1⟩ := idx_out t
  funext j
  refine (pay_apply (iblk1 V c 0 t) (iblk1 V c 1 t) j).trans ?_
  show rowsTimes (a := 2000) (k := 64) (b := 32) _ _ j = rowsTimes (a := 100000) (k := 64) (b := 32) _ _ (((cfg1.win 2).blk t).view.emb j)
  unfold rowsTimes
  refine Finset.sum_congr rfl fun k _ => ?_
  have hl : ((iblk1 V c 0 t : Vec Ideal S2000x64 .f32) (ix2 (j 0) k) : EReal)
      = (V c main_v47 : S100000x64.Idx → EReal) (ix2 ((((cfg1.win 2).blk t).view.emb j) 0) k) :=
    left_apply V c t (ix2 (j 0) k) (ix2 ((((cfg1.win 2).blk t).view.emb j) 0) k)
      (by show win1_2.index t 0 * 2000 + 1 * (j 0).val = 2000 * t.val + (j 0).val; rw [e0]; omega) rfl
  have hc : (ix2 k (j 1) : S64x32.Idx) = ix2 k ((((cfg1.win 2).blk t).view.emb j) 1) := by
    refine congrArg (ix2 k) (Fin.ext ?_)
    show (j 1).val = win1_2.index t 1 * 32 + 1 * (j 1).val; rw [e1]; omega
  have hr : ((iblk1 V c 1 t : Vec Ideal S64x32 .f32) (ix2 k (j 1)) : EReal)
      = (V c main_arg4 : S64x32.Idx → EReal) (ix2 k ((((cfg1.win 2).blk t).view.emb j) 1)) :=
    (right_apply V c t (ix2 k (j 1))).trans (congrArg (V c main_arg4 : S64x32.Idx → EReal) hc)
  exact congrArg₂ (fun a b : EReal => a * b) hl hr

/-- An index of the result is in point `t`'s block iff each coordinate is in the block's range on its axis. -/
theorem mem_blk (t : Fin cfg1.N) (i : S100000x32.Idx) :
    i ∈ ((cfg1.win 2).blk t).view.set ↔ ∀ a : Fin 2, win1_2.index t a * S2000x32.size a ≤ (i a).val ∧ (i a).val < win1_2.index t a * S2000x32.size a + S2000x32.size a := by
  show i ∈ ((View.whole main_v48).slice (win1_2.rect t)).set ↔ _
  rw [View.set_slice_whole, Rect.mem_set_unit]
  exact Iff.rfl

/-- Row `r` lies in block `r / 2000`: the blocks cover the result. -/
theorem cover (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 50 := N_1
  refine ⟨⟨(i 0).val / 2000, by rw [hN]; omega⟩, flush1_2 _, ?_⟩
  rw [mem_blk]
  obtain ⟨e0, e1⟩ := idx_out ⟨(i 0).val / 2000, by rw [hN]; omega⟩
  intro a
  match a with
  | ⟨0, _⟩ => show win1_2.index _ 0 * 2000 ≤ (i 0).val ∧ (i 0).val < win1_2.index _ 0 * 2000 + 2000; rw [e0]; show (i 0).val / 2000 * 2000 ≤ (i 0).val ∧ (i 0).val < (i 0).val / 2000 * 2000 + 2000; omega
  | ⟨1, _⟩ => show win1_2.index _ 1 * 32 ≤ (i 1).val ∧ (i 1).val < win1_2.index _ 1 * 32 + 32; rw [e1]; omega

/-- THE RESULT ARRAY after the region: the matrix product of the two arrays the region was entered with. -/
theorem array_eq (c : Dev nD) : (dat1 V c).arrAt 2 cfg1.N = product V c :=
  (dat1 V c).arrAt_eq_of_cover 2 (product V c) (fun t _ => flushed_eq V c t) cover

end Cert.KernelIdeal.Layer2

end
-- ==== Proof.LibRowBias.lean ====
/-
  A dense layer's epilogue read at an entry: a row of biases `[1, b]` added to every row of an `[a, b]` array and the
  positive part taken (the maximum with zero), on the extended reals.
-/
import Idealize.ShloMosaic.Lib.ValueIdx
import Idealize.ShloMosaic.PureOps.Ideal

noncomputable section

namespace Cert.Lib.RowBias

open Idealize.ShloMosaic Idealize.ShloMosaic.ValueIdx

/-- `max (p (r, c) + bias (0, c), 0)` at every entry (r, c). -/
def rowBiasRelu {a b : Nat} (p : (⟨2, ![a, b]⟩ : Shape).Idx → EReal) (bias : (⟨2, ![1, b]⟩ : Shape).Idx → EReal) :
    (⟨2, ![a, b]⟩ : Shape).Idx → EReal :=
  fun i => FloatOps.maximumf (F := Ideal) (φ := .f32) (FloatOps.addf (F := Ideal) (φ := .f32) (p i) (bias (ix2 (0 : Fin 1) (i 1))))
    (Scalar.ofBits (F := Ideal) .f32 0x00000000#32)

end Cert.Lib.RowBias

end
-- ==== Proof.Decoder1Blocks.lean ====
/-
  The decoder's first dense layer, relu (z · Wf1 + bf1), as the kernel computes it block by block.
  The pallas_call tiles the 100000 rows into 50 blocks of 2000; at block `t` the body multiplies rows
  `2000·t … 2000·t + 1999` of the left array by the whole [32, 64] right array on the matrix unit, into a zero
  accumulator, adds the one-row bias array [1, 64] to every row and takes the maximum with zero.  On the extended reals
  the narrowing of the operands to bf16 is the identity, so entry (r, c) of block `t` is
  max (∑ j, left (2000·t + r, j) · right (j, c) + bias (0, c), 0): the blocks are the row blocks of ONE array,
  `rowBiasRelu` of the matrix product `rowsTimes` of the arrays as the region finds them, and the 50 blocks cover every row.
-/
import proofs.«112977_j38070590112103_1_alg».proof.Proof.Gen.KernelIdeal.Frame
import proofs.«112977_j38070590112103_1_alg».proof.Proof.LibPlainDot
import proofs.«112977_j38070590112103_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Decoder1

open Idealize.ShloMosaic Idealize.ShloMosaic.TcCoe Idealize.SL.Sem Idealize.ShloMosaic.ValueIdx
open Idealize.ShloMosaic.Pipeline (Dat)
open Cert.KernelIdeal Cert.KernelIdeal.Gen Cert.Lib.PlainDot Cert.Lib.RowBias

variable (V : (c : Dev nD) → (b : Ref sig .tc) → Buf (Elt Ideal) ((c : Thread nD τ).loc b))

theorem hz : (![0, 0] : Fin 2 → Nat) = fun _ => 0 := funext fun a => by fin_cases a <;> rfl

/-! ## The block product's operand indices -/

theorem lhs_0 (i : S2000x64.Idx) (q : dot_S2000x32_S32x64_S2000x64_1_0_0_1_n_n.contr.Idx) : (dot_S2000x32_S32x64_S2000x64_1_0_0_1_n_n.lhsIdx i q 0).val = (i 0).val := by
  unfold DotDims.lhsIdx
  rw [dif_neg (show ¬(0 : Fin S2000x32.rank) ∈ dot_S2000x32_S32x64_S2000x64_1_0_0_1_n_n.lhsBatch by decide), dif_pos (show (0 : Fin S2000x32.rank) ∈ dot_S2000x32_S32x64_S2000x64_1_0_0_1_n_n.lhsNonContracting by decide)]
  rfl
theorem lhs_1 (i : S2000x64.Idx) (q : dot_S2000x32_S32x64_S2000x64_1_0_0_1_n_n.contr.Idx) : (dot_S2000x32_S32x64_S2000x64_1_0_0_1_n_n.lhsIdx i q 1).val = (q ⟨0, by decide⟩).val :=
  dot_S2000x32_S32x64_S2000x64_1_0_0_1_n_n.lhsIdx_val_of_single rfl i q
theorem rhs_0 (i : S2000x64.Idx) (q : dot_S2000x32_S32x64_S2000x64_1_0_0_1_n_n.contr.Idx) : (dot_S2000x32_S32x64_S2000x64_1_0_0_1_n_n.rhsIdx i q 0).val = (q ⟨0, by decide⟩).val :=
  dot_S2000x32_S32x64_S2000x64_1_0_0_1_n_n.rhsIdx_val_of_single rfl i q
theorem rhs_1 (i : S2000x64.Idx) (q : dot_S2000x32_S32x64_S2000x64_1_0_0_1_n_n.contr.Idx) : (dot_S2000x32_S32x64_S2000x64_1_0_0_1_n_n.rhsIdx i q 1).val = (i 1).val := by
  unfold DotDims.rhsIdx
  rw [dif_neg (show ¬(1 : Fin S32x64.rank) ∈ dot_S2000x32_S32x64_S2000x64_1_0_0_1_n_n.rhsBatch by decide), dif_pos (show (1 : Fin S32x64.rank) ∈ dot_S2000x32_S32x64_S2000x64_1_0_0_1_n_n.rhsNonContracting by decide)]
  rfl

/-- What the body stores, at an entry: the block of rows times the right array, plus the bias row, positive part. -/
theorem pay_apply (x0 : Vec Ideal S2000x32 .f32) (x1 : Vec Ideal S32x64 .f32) (x2 : Vec Ideal S1x64 .f32) (j : S2000x64.Idx) :
    k2_pay1 (F := Ideal) x0 x1 x2 j
      = rowBiasRelu (a := 2000) (b := 64) (rowsTimes (a := 2000) (k := 32) (b := 64) x0 x1) x2 j := by
  obtain ⟨r, q, rfl⟩ : ∃ (r : Fin 2000) (q : Fin 64), j = ix2 r q := ⟨j 0, j 1, eq_ix2 j⟩
  have hm := matmul_zero_apply dot_S2000x32_S32x64_S2000x64_1_0_0_1_n_n rfl rfl lhs_0 lhs_1 rhs_0 rhs_1 none
    (truncf .bf16 x0 bitsLt_bf16_f32) (truncf .bf16 x1 bitsLt_bf16_f32) (ix2 r q)
  have hb := broadcastTo_1b_ab_apply (a := 2000) (b := 64) x2 broadcasts_S1x64_S2000x64 r q
  unfold k2_pay1
  simp only [shapeCast_self]
  unfold rowBiasRelu
  exact congrArg₂ (fun u w : EReal => FloatOps.maximumf (F := Ideal) (φ := .f32) (FloatOps.addf (F := Ideal) (φ := .f32) u w)
    (Scalar.ofBits (F := Ideal) .f32 0x00000000#32)) hm hb

/-! ## The windows' index maps, decided over the grid -/

theorem idx_left : ∀ t : Fin cfg2.N, win2_0.index t (0 : Fin 2) = t.val ∧ win2_0.index t (1 : Fin 2) = 0 :=
  (by decide +kernel : ∀ t : Fin grid2.N, _)
theorem idx_right : ∀ t : Fin cfg2.N, win2_1.index t (0 : Fin 2) = 0 ∧ win2_1.index t (1 : Fin 2) = 0 :=
  (by decide +kernel : ∀ t : Fin grid2.N, _)
theorem idx_bias : ∀ t : Fin cfg2.N, win2_2.index t (0 : Fin 2) = 0 ∧ win2_2.index t (1 : Fin 2) = 0 :=
  (by decide +kernel : ∀ t : Fin grid2.N, _)
theorem idx_out : ∀ t : Fin cfg2.N, win2_3.index t (0 : Fin 2) = t.val ∧ win2_3.index t (1 : Fin 2) = 0 :=
  (by decide +kernel : ∀ t : Fin grid2.N, _)

/-! ## The input blocks as rows of the arrays -/

/-- The left window's block at point `t` is rows `2000·t …` of its array. -/
theorem left_apply (c : Dev nD) (t : Fin cfg2.N) (x : S2000x32.Idx) (i : S100000x32.Idx)
    (h0 : (i 0).val = 2000 * t.val + (x 0).val) (h1 : (i 1).val = (x 1).val) :
    (iblk2 V c 0 t : Vec Ideal S2000x32 .f32) x = (V c main_v64 : S100000x32.Idx → EReal) i := by
  obtain ⟨e0, e1⟩ := idx_left t
  unfold iblk2
  rw [View.read_apply]
  show V c main_v64 _ = V c main_v64 _
  refine congrArg _ (funext fun a => Fin.ext ?_)
  match a with
  | ⟨0, _⟩ => show win2_0.index t 0 * 2000 + 1 * (x 0).val = (i 0).val; rw [e0, h0]; omega
  | ⟨1, _⟩ => show win2_0.index t 1 * 32 + 1 * (x 1).val = (i 1).val; rw [e1, h1]; omega

/-- The right window's block is the whole right array at every point. -/
theorem right_apply (c : Dev nD) (t : Fin cfg2.N) (x : S32x64.Idx) :
    (iblk2 V c 1 t : Vec Ideal S32x64 .f32) x = (V c main_arg6 : S32x64.Idx → EReal) x := by
  obtain ⟨e0, e1⟩ := idx_right t
  unfold iblk2
  rw [View.read_apply]
  show V c main_arg6 _ = V c main_arg6 _
  refine congrArg _ (funext fun a => Fin.ext ?_)
  match a with
  | ⟨0, _⟩ => show win2_1.index t 0 * 32 + 1 * (x 0).val = (x 0).val; rw [e0]; omega
  | ⟨1, _⟩ => show win2_1.index t 1 * 64 + 1 * (x 1).val = (x 1).val; rw [e1]; omega

/-- The bias window's block is the whole one-row bias array at every point. -/
theorem bias_apply (c : Dev nD) (t : Fin cfg2.N) (x : S1x64.Idx) :
    (iblk2 V c 2 t : Vec Ideal S1x64 .f32) x = (V c main_v65 : S1x64.Idx → EReal) x := by
  obtain ⟨e0, e1⟩ := idx_bias t
  unfold iblk2
  rw [View.read_apply]
  show V c main_v65 _ = V c main_v65 _
  refine congrArg _ (funext fun a => Fin.ext ?_)
  match a with
  | ⟨0, _⟩ => show win2_2.index t 0 * 1 + 1 * (x 0).val = (x 0).val; rw [e0]; omega
  | ⟨1, _⟩ => show win2_2.index t 1 * 64 + 1 * (x 1).val = (x 1).val; rw [e1]; omega

/-! ## The result array -/

/-- The dense layer of the arrays as the region finds them: product, plus the bias row, positive part. -/
abbrev layer (c : Dev nD) : S100000x64.Idx → EReal :=
  rowBiasRelu (a := 100000) (b := 64)
    (rowsTimes (a := 100000) (k := 32) (b := 64) (V c main_v64 : S100000x32.Idx → EReal) (V c main_arg6 : S32x64.Idx → EReal))
    (V c main_v65 : S1x64.Idx → EReal)

/-- The block of rows times the right array is the rows `2000·t …` of the whole product. -/
theorem block_product (c : Dev nD) (t : Fin cfg2.N) (j : S2000x64.Idx) :
    rowsTimes (a := 2000) (k := 32) (b := 64) (iblk2 V c 0 t) (iblk2 V c 1 t) j
      = rowsTimes (a := 100000) (k := 32) (b := 64) (V c main_v64 : S100000x32.Idx → EReal) (V c main_arg6 : S32x64.Idx → EReal)
          (((cfg2.win 3).blk t).view.emb j) := by
  obtain ⟨e0, e1⟩ := idx_out t
  unfold rowsTimes
  refine Finset.sum_congr rfl fun k _ => ?_
  have hl : ((iblk2 V c 0 t : Vec Ideal S2000x32 .f32) (ix2 (j 0) k) : EReal)
      = (V c main_v64 : S100000x32.Idx → EReal) (ix2 ((((cfg2.win 3).blk t).view.emb j) 0) k) :=
    left_apply V c t (ix2 (j 0) k) (ix2 ((((cfg2.win 3).blk t).view.emb j) 0) k)
      (by show win2_3.index t 0 * 2000 + 1 * (j 0).val = 2000 * t.val + (j 0).val; rw [e0]; omega) rfl
  have hc : (ix2 k (j 1) : S32x64.Idx) = ix2 k ((((cfg2.win 3).blk t).view.emb j) 1) := by
    refine congrArg (ix2 k) (Fin.ext ?_)
    show (j 1).val = win2_3.index t 1 * 64 + 1 * (j 1).val; rw [e1]; omega
  have hr : ((iblk2 V c 1 t : Vec Ideal S32x64 .f32) (ix2 k (j 1)) : EReal)
      = (V c main_arg6 : S32x64.Idx → EReal) (ix2 k ((((cfg2.win 3).blk t).view.emb j) 1)) :=
    (right_apply V c t (ix2 k (j 1))).trans (congrArg (V c main_arg6 : S32x64.Idx → EReal) hc)
  exact congrArg₂ (fun a b : EReal => a * b) hl hr

/-- What point `t` writes back is block `t` of the layer. -/
theorem flushed_eq (c : Dev nD) (t : Fin cfg2.N) :
    (dat2 V c).flushed 3 t = ((cfg2.win 3).blk t).view.read (Elt Ideal) (layer V c) := by
  show (cfg2.win 3).cut (grid2.coords t) ((dat2 V c).after 3 t) = _
  rw [after2_3]
  unfold out2_3
  rw [View.canon_unit_zero hz]
  simp only [View.ld_unit_zero (S := S2000x32) hz, View.ld_unit_zero (S := S32x64) hz, View.ld_unit_zero (S := S1x64) hz]
  obtain ⟨e0, e1⟩ := idx_out t
  funext j
  refine (pay_apply (iblk2 V c 0 t) (iblk2 V c 1 t) (iblk2 V c 2 t) j).trans ?_
  show rowBiasRelu (a := 2000) (b := 64) _ _ j = rowBiasRelu (a := 100000) (b := 64) _ _ (((cfg2.win 3).blk t).view.emb j)
  unfold rowBiasRelu
  have hc : (ix2 (0 : Fin 1) (j 1) : S1x64.Idx) = ix2 (0 : Fin 1) ((((cfg2.win 3).blk t).view.emb j) 1) := by
    refine congrArg (ix2 (0 : Fin 1)) (Fin.ext ?_)
    show (j 1).val = win2_3.index t 1 * 64 + 1 * (j 1).val; rw [e1]; omega
  have hb : ((iblk2 V c 2 t : Vec Ideal S1x64 .f32) (ix2 (0 : Fin 1) (j 1)) : EReal)
      = (V c main_v65 : S1x64.Idx → EReal) (ix2 (0 : Fin 1) ((((cfg2.win 3).blk t).view.emb j) 1)) :=
    (bias_apply V c t (ix2 (0 : Fin 1) (j 1))).trans (congrArg (V c main_v65 : S1x64.Idx → EReal) hc)
  exact congrArg₂ (fun u w : EReal => FloatOps.maximumf (F := Ideal) (φ := .f32) (FloatOps.addf (F := Ideal) (φ := .f32) u w)
    (Scalar.ofBits (F := Ideal) .f32 0x00000000#32)) (block_product V c t j) hb

/-- An index of the result is in point `t`'s block iff each coordinate is in the block's range on its axis. -/
theorem mem_blk (t : Fin cfg2.N) (i : S100000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v66).slice (win2_3.rect t)).set ↔ _
  rw [View.set_slice_whole, Rect.mem_set_unit]
  exact Iff.rfl

/-- Row `r` lies in block `r / 2000`: the blocks cover the result. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 50 := N_2
  refine ⟨⟨(i 0).val / 2000, by rw [hN]; omega⟩, flush2_3 _, ?_⟩
  rw [mem_blk]
  obtain ⟨e0, e1⟩ := idx_out ⟨(i 0).val / 2000, by rw [hN]; omega⟩
  intro a
  match a with
  | ⟨0, _⟩ => show win2_3.index _ 0 * 2000 ≤ (i 0).val ∧ (i 0).val < win2_3.index _ 0 * 2000 + 2000; rw [e0]; show (i 0).val / 2000 * 2000 ≤ (i 0).val ∧ (i 0).val < (i 0).val / 2000 * 2000 + 2000; omega
  | ⟨1, _⟩ => show win2_3.index _ 1 * 64 ≤ (i 1).val ∧ (i 1).val < win2_3.index _ 1 * 64 + 64; rw [e1]; omega

/-- THE RESULT ARRAY after the region: the dense layer of the arrays the region was entered with. -/
theorem array_eq (c : Dev nD) : (dat2 V c).arrAt 3 cfg2.N = layer V c :=
  (dat2 V c).arrAt_eq_of_cover 3 (layer V c) (fun t _ => flushed_eq V c t) cover

end Cert.KernelIdeal.Decoder1

end
-- ==== Proof.Decoder2Blocks.lean ====
/-
  The decoder's second dense layer, relu (d · Wf2 + bf2), as the kernel computes it block by block.
  The pallas_call tiles the 100000 rows into 50 blocks of 2000; at block `t` the body multiplies rows
  `2000·t … 2000·t + 1999` of the left array by the whole [64, 1024] right array on the matrix unit, into a zero
  accumulator, adds the one-row bias array [1, 1024] to every row and takes the maximum with zero.  On the extended reals
  the narrowing of the operands to bf16 is the identity, so entry (r, c) of block `t` is
  max (∑ j, left (2000·t + r, j) · right (j, c) + bias (0, c), 0): the blocks are the row blocks of ONE array,
  `rowBiasRelu` of the matrix product `rowsTimes` of the arrays as the region finds them, and the 50 blocks cover every row.
-/
import proofs.«112977_j38070590112103_1_alg».proof.Proof.Gen.KernelIdeal.Frame
import proofs.«112977_j38070590112103_1_alg».proof.Proof.LibPlainDot
import proofs.«112977_j38070590112103_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Decoder2

open Idealize.ShloMosaic Idealize.ShloMosaic.TcCoe Idealize.SL.Sem Idealize.ShloMosaic.ValueIdx
open Idealize.ShloMosaic.Pipeline (Dat)
open Cert.KernelIdeal Cert.KernelIdeal.Gen Cert.Lib.PlainDot Cert.Lib.RowBias

variable (V : (c : Dev nD) → (b : Ref sig .tc) → Buf (Elt Ideal) ((c : Thread nD τ).loc b))

theorem hz : (![0, 0] : Fin 2 → Nat) = fun _ => 0 := funext fun a => by fin_cases a <;> rfl

/-! ## The block product's operand indices -/

theorem lhs_0 (i : S2000x1024.Idx) (q : dot_S2000x64_S64x1024_S2000x1024_1_0_0_1_n_n.contr.Idx) : (dot_S2000x64_S64x1024_S2000x1024_1_0_0_1_n_n.lhsIdx i q 0).val = (i 0).val := by
  unfold DotDims.lhsIdx
  rw [dif_neg (show ¬(0 : Fin S2000x64.rank) ∈ dot_S2000x64_S64x1024_S2000x1024_1_0_0_1_n_n.lhsBatch by decide), dif_pos (show (0 : Fin S2000x64.rank) ∈ dot_S2000x64_S64x1024_S2000x1024_1_0_0_1_n_n.lhsNonContracting by decide)]
  rfl
theorem lhs_1 (i : S2000x1024.Idx) (q : dot_S2000x64_S64x1024_S2000x1024_1_0_0_1_n_n.contr.Idx) : (dot_S2000x64_S64x1024_S2000x1024_1_0_0_1_n_n.lhsIdx i q 1).val = (q ⟨0, by decide⟩).val :=
  dot_S2000x64_S64x1024_S2000x1024_1_0_0_1_n_n.lhsIdx_val_of_single rfl i q
theorem rhs_0 (i : S2000x1024.Idx) (q : dot_S2000x64_S64x1024_S2000x1024_1_0_0_1_n_n.contr.Idx) : (dot_S2000x64_S64x1024_S2000x1024_1_0_0_1_n_n.rhsIdx i q 0).val = (q ⟨0, by decide⟩).val :=
  dot_S2000x64_S64x1024_S2000x1024_1_0_0_1_n_n.rhsIdx_val_of_single rfl i q
theorem rhs_1 (i : S2000x1024.Idx) (q : dot_S2000x64_S64x1024_S2000x1024_1_0_0_1_n_n.contr.Idx) : (dot_S2000x64_S64x1024_S2000x1024_1_0_0_1_n_n.rhsIdx i q 1).val = (i 1).val := by
  unfold DotDims.rhsIdx
  rw [dif_neg (show ¬(1 : Fin S64x1024.rank) ∈ dot_S2000x64_S64x1024_S2000x1024_1_0_0_1_n_n.rhsBatch by decide), dif_pos (show (1 : Fin S64x1024.rank) ∈ dot_S2000x64_S64x1024_S2000x1024_1_0_0_1_n_n.rhsNonContracting by decide)]
  rfl

/-- What the body stores, at an entry: the block of rows times the right array, plus the bias row, positive part. -/
theorem pay_apply (x0 : Vec Ideal S2000x64 .f32) (x1 : Vec Ideal S64x1024 .f32) (x2 : Vec Ideal S1x1024 .f32) (j : S2000x1024.Idx) :
    k3_pay1 (F := Ideal) x0 x1 x2 j
      = rowBiasRelu (a := 2000) (b := 1024) (rowsTimes (a := 2000) (k := 64) (b := 1024) x0 x1) x2 j := by
  obtain ⟨r, q, rfl⟩ : ∃ (r : Fin 2000) (q : Fin 1024), j = ix2 r q := ⟨j 0, j 1, eq_ix2 j⟩
  have hm := matmul_zero_apply dot_S2000x64_S64x1024_S2000x1024_1_0_0_1_n_n rfl rfl lhs_0 lhs_1 rhs_0 rhs_1 none
    (truncf .bf16 x0 bitsLt_bf16_f32) (truncf .bf16 x1 bitsLt_bf16_f32) (ix2 r q)
  have hb := broadcastTo_1b_ab_apply (a := 2000) (b := 1024) x2 broadcasts_S1x1024_S2000x1024 r q
  unfold k3_pay1
  simp only [shapeCast_self]
  unfold rowBiasRelu
  exact congrArg₂ (fun u w : EReal => FloatOps.maximumf (F := Ideal) (φ := .f32) (FloatOps.addf (F := Ideal) (φ := .f32) u w)
    (Scalar.ofBits (F := Ideal) .f32 0x00000000#32)) hm hb

/-! ## The windows' index maps, decided over the grid -/

theorem idx_left : ∀ t : Fin cfg3.N, win3_0.index t (0 : Fin 2) = t.val ∧ win3_0.index t (1 : Fin 2) = 0 :=
  (by decide +kernel : ∀ t : Fin grid3.N, _)
theorem idx_right : ∀ t : Fin cfg3.N, win3_1.index t (0 : Fin 2) = 0 ∧ win3_1.index t (1 : Fin 2) = 0 :=
  (by decide +kernel : ∀ t : Fin grid3.N, _)
theorem idx_bias : ∀ t : Fin cfg3.N, win3_2.index t (0 : Fin 2) = 0 ∧ win3_2.index t (1 : Fin 2) = 0 :=
  (by decide +kernel : ∀ t : Fin grid3.N, _)
theorem idx_out : ∀ t : Fin cfg3.N, win3_3.index t (0 : Fin 2) = t.val ∧ win3_3.index t (1 : Fin 2) = 0 :=
  (by decide +kernel : ∀ t : Fin grid3.N, _)

/-! ## The input blocks as rows of the arrays -/

/-- The left window's block at point `t` is rows `2000·t …` of its array. -/
theorem left_apply (c : Dev nD) (t : Fin cfg3.N) (x : S2000x64.Idx) (i : S100000x64.Idx)
    (h0 : (i 0).val = 2000 * t.val + (x 0).val) (h1 : (i 1).val = (x 1).val) :
    (iblk3 V c 0 t : Vec Ideal S2000x64 .f32) x = (V c main_v66 : S100000x64.Idx → EReal) i := by
  obtain ⟨e0, e1⟩ := idx_left t
  unfold iblk3
  rw [View.read_apply]
  show V c main_v66 _ = V c main_v66 _
  refine congrArg _ (funext fun a => Fin.ext ?_)
  match a with
  | ⟨0, _⟩ => show win3_0.index t 0 * 2000 + 1 * (x 0).val = (i 0).val; rw [e0, h0]; omega
  | ⟨1, _⟩ => show win3_0.index t 1 * 64 + 1 * (x 1).val = (i 1).val; rw [e1, h1]; omega

/-- The right window's block is the whole right array at every point. -/
theorem right_apply (c : Dev nD) (t : Fin cfg3.N) (x : S64x1024.Idx) :
    (iblk3 V c 1 t : Vec Ideal S64x1024 .f32) x = (V c main_arg8 : S64x1024.Idx → EReal) x := by
  obtain ⟨e0, e1⟩ := idx_right t
  unfold iblk3
  rw [View.read_apply]
  show V c main_arg8 _ = V c main_arg8 _
  refine congrArg _ (funext fun a => Fin.ext ?_)
  match a with
  | ⟨0, _⟩ => show win3_1.index t 0 * 64 + 1 * (x 0).val = (x 0).val; rw [e0]; omega
  | ⟨1, _⟩ => show win3_1.index t 1 * 1024 + 1 * (x 1).val = (x 1).val; rw [e1]; omega

/-- The bias window's block is the whole one-row bias array at every point. -/
theorem bias_apply (c : Dev nD) (t : Fin cfg3.N) (x : S1x1024.Idx) :
    (iblk3 V c 2 t : Vec Ideal S1x1024 .f32) x = (V c main_v67 : S1x1024.Idx → EReal) x := by
  obtain ⟨e0, e1⟩ := idx_bias t
  unfold iblk3
  rw [View.read_apply]
  show V c main_v67 _ = V c main_v67 _
  refine congrArg _ (funext fun a => Fin.ext ?_)
  match a with
  | ⟨0, _⟩ => show win3_2.index t 0 * 1 + 1 * (x 0).val = (x 0).val; rw [e0]; omega
  | ⟨1, _⟩ => show win3_2.index t 1 * 1024 + 1 * (x 1).val = (x 1).val; rw [e1]; omega

/-! ## The result array -/

/-- The dense layer of the arrays as the region finds them: product, plus the bias row, positive part. -/
abbrev layer (c : Dev nD) : S100000x1024.Idx → EReal :=
  rowBiasRelu (a := 100000) (b := 1024)
    (rowsTimes (a := 100000) (k := 64) (b := 1024) (V c main_v66 : S100000x64.Idx → EReal) (V c main_arg8 : S64x1024.Idx → EReal))
    (V c main_v67 : S1x1024.Idx → EReal)

/-- The block of rows times the right array is the rows `2000·t …` of the whole product. -/
theorem block_product (c : Dev nD) (t : Fin cfg3.N) (j : S2000x1024.Idx) :
    rowsTimes (a := 2000) (k := 64) (b := 1024) (iblk3 V c 0 t) (iblk3 V c 1 t) j
      = rowsTimes (a := 100000) (k := 64) (b := 1024) (V c main_v66 : S100000x64.Idx → EReal) (V c main_arg8 : S64x1024.Idx → EReal)
          (((cfg3.win 3).blk t).view.emb j) := by
  obtain ⟨e0, e1⟩ := idx_out t
  unfold rowsTimes
  refine Finset.sum_congr rfl fun k _ => ?_
  have hl : ((iblk3 V c 0 t : Vec Ideal S2000x64 .f32) (ix2 (j 0) k) : EReal)
      = (V c main_v66 : S100000x64.Idx → EReal) (ix2 ((((cfg3.win 3).blk t).view.emb j) 0) k) :=
    left_apply V c t (ix2 (j 0) k) (ix2 ((((cfg3.win 3).blk t).view.emb j) 0) k)
      (by show win3_3.index t 0 * 2000 + 1 * (j 0).val = 2000 * t.val + (j 0).val; rw [e0]; omega) rfl
  have hc : (ix2 k (j 1) : S64x1024.Idx) = ix2 k ((((cfg3.win 3).blk t).view.emb j) 1) := by
    refine congrArg (ix2 k) (Fin.ext ?_)
    show (j 1).val = win3_3.index t 1 * 1024 + 1 * (j 1).val; rw [e1]; omega
  have hr : ((iblk3 V c 1 t : Vec Ideal S64x1024 .f32) (ix2 k (j 1)) : EReal)
      = (V c main_arg8 : S64x1024.Idx → EReal) (ix2 k ((((cfg3.win 3).blk t).view.emb j) 1)) :=
    (right_apply V c t (ix2 k (j 1))).trans (congrArg (V c main_arg8 : S64x1024.Idx → EReal) hc)
  exact congrArg₂ (fun a b : EReal => a * b) hl hr

/-- What point `t` writes back is block `t` of the layer. -/
theorem flushed_eq (c : Dev nD) (t : Fin cfg3.N) :
    (dat3 V c).flushed 3 t = ((cfg3.win 3).blk t).view.read (Elt Ideal) (layer V c) := by
  show (cfg3.win 3).cut (grid3.coords t) ((dat3 V c).after 3 t) = _
  rw [after3_3]
  unfold out3_3
  rw [View.canon_unit_zero hz]
  simp only [View.ld_unit_zero (S := S2000x64) hz, View.ld_unit_zero (S := S64x1024) hz, View.ld_unit_zero (S := S1x1024) hz]
  obtain ⟨e0, e1⟩ := idx_out t
  funext j
  refine (pay_apply (iblk3 V c 0 t) (iblk3 V c 1 t) (iblk3 V c 2 t) j).trans ?_
  show rowBiasRelu (a := 2000) (b := 1024) _ _ j = rowBiasRelu (a := 100000) (b := 1024) _ _ (((cfg3.win 3).blk t).view.emb j)
  unfold rowBiasRelu
  have hc : (ix2 (0 : Fin 1) (j 1) : S1x1024.Idx) = ix2 (0 : Fin 1) ((((cfg3.win 3).blk t).view.emb j) 1) := by
    refine congrArg (ix2 (0 : Fin 1)) (Fin.ext ?_)
    show (j 1).val = win3_3.index t 1 * 1024 + 1 * (j 1).val; rw [e1]; omega
  have hb : ((iblk3 V c 2 t : Vec Ideal S1x1024 .f32) (ix2 (0 : Fin 1) (j 1)) : EReal)
      = (V c main_v67 : S1x1024.Idx → EReal) (ix2 (0 : Fin 1) ((((cfg3.win 3).blk t).view.emb j) 1)) :=
    (bias_apply V c t (ix2 (0 : Fin 1) (j 1))).trans (congrArg (V c main_v67 : S1x1024.Idx → EReal) hc)
  exact congrArg₂ (fun u w : EReal => FloatOps.maximumf (F := Ideal) (φ := .f32) (FloatOps.addf (F := Ideal) (φ := .f32) u w)
    (Scalar.ofBits (F := Ideal) .f32 0x00000000#32)) (block_product V c t j) hb

/-- An index of the result is in point `t`'s block iff each coordinate is in the block's range on its axis. -/
theorem mem_blk (t : Fin cfg3.N) (i : S100000x1024.Idx) :
    i ∈ ((cfg3.win 3).blk t).view.set ↔ ∀ a : Fin 2, win3_3.index t a * S2000x1024.size a ≤ (i a).val ∧ (i a).val < win3_3.index t a * S2000x1024.size a + S2000x1024.size a := by
  show i ∈ ((View.whole main_v68).slice (win3_3.rect t)).set ↔ _
  rw [View.set_slice_whole, Rect.mem_set_unit]
  exact Iff.rfl

/-- Row `r` lies in block `r / 2000`: the blocks cover the result. -/
theorem cover (i : S100000x1024.Idx) : ∃ t : Fin cfg3.N, (cfg3.win 3).flush t = true ∧ i ∈ ((cfg3.win 3).blk t).view.set := by
  have hi0 : (i 0).val < 100000 := (i 0).isLt
  have hi1 : (i 1).val < 1024 := (i 1).isLt
  have hN : cfg3.N = 50 := N_3
  refine ⟨⟨(i 0).val / 2000, by rw [hN]; omega⟩, flush3_3 _, ?_⟩
  rw [mem_blk]
  obtain ⟨e0, e1⟩ := idx_out ⟨(i 0).val / 2000, by rw [hN]; omega⟩
  intro a
  match a with
  | ⟨0, _⟩ => show win3_3.index _ 0 * 2000 ≤ (i 0).val ∧ (i 0).val < win3_3.index _ 0 * 2000 + 2000; rw [e0]; show (i 0).val / 2000 * 2000 ≤ (i 0).val ∧ (i 0).val < (i 0).val / 2000 * 2000 + 2000; omega
  | ⟨1, _⟩ => show win3_3.index _ 1 * 1024 ≤ (i 1).val ∧ (i 1).val < win3_3.index _ 1 * 1024 + 1024; rw [e1]; omega

/-- THE RESULT ARRAY after the region: the dense layer of the arrays the region was entered with. -/
theorem array_eq (c : Dev nD) : (dat3 V c).arrAt 3 cfg3.N = layer V c :=
  (dat3 V c).arrAt_eq_of_cover 3 (layer V c) (fun t _ => flushed_eq V c t) cover

end Cert.KernelIdeal.Decoder2

end
-- ==== Proof.RefDots.lean ====
/-
  The reference's four matrix products (x · Wg1, h · Wg2, z · Wf1, d · Wf2), each read at an entry: the host's
  `dot_general` with the left operand's second axis contracted against the right operand's first is, on the extended
  reals, the sum over `j` of left (i₀, j) · right (j, i₁), the same `rowsTimes` the kernel's blocks add up to.
-/
import proofs.«112977_j38070590112103_1_alg».proof.ReferenceIdeal
import proofs.«112977_j38070590112103_1_alg».proof.Proof.Gen.ReferenceIdeal
import proofs.«112977_j38070590112103_1_alg».proof.Proof.LibPlainDot
import Idealize.ShloMosaic.PureOps.Ideal.Laws

noncomputable section

namespace Cert.ReferenceIdeal.Dots

open Idealize.ShloMosaic Cert.ReferenceIdeal Cert.ReferenceIdeal.Gen Cert.Lib.PlainDot

/-! ## [100000, 1024] × [1024, 64] -/

theorem d1_lhs_0 (i : S100000x64.Idx) (q : dot_S100000x1024_S1024x64_S100000x64_1_0_0_1_n_n.contr.Idx) : (dot_S100000x1024_S1024x64_S100000x64_1_0_0_1_n_n.lhsIdx i q 0).val = (i 0).val := by
  unfold DotDims.lhsIdx
  rw [dif_neg (show ¬(0 : Fin S100000x1024.rank) ∈ dot_S100000x1024_S1024x64_S100000x64_1_0_0_1_n_n.lhsBatch by decide), dif_pos (show (0 : Fin S100000x1024.rank) ∈ dot_S100000x1024_S1024x64_S100000x64_1_0_0_1_n_n.lhsNonContracting by decide)]
  rfl
theorem d1_lhs_1 (i : S100000x64.Idx) (q : dot_S100000x1024_S1024x64_S100000x64_1_0_0_1_n_n.contr.Idx) : (dot_S100000x1024_S1024x64_S100000x64_1_0_0_1_n_n.lhsIdx i q 1).val = (q ⟨0, by decide⟩).val :=
  dot_S100000x1024_S1024x64_S100000x64_1_0_0_1_n_n.lhsIdx_val_of_single rfl i q
theorem d1_rhs_0 (i : S100000x64.Idx) (q : dot_S100000x1024_S1024x64_S100000x64_1_0_0_1_n_n.contr.Idx) : (dot_S100000x1024_S1024x64_S100000x64_1_0_0_1_n_n.rhsIdx i q 0).val = (q ⟨0, by decide⟩).val :=
  dot_S100000x1024_S1024x64_S100000x64_1_0_0_1_n_n.rhsIdx_val_of_single rfl i q
theorem d1_rhs_1 (i : S100000x64.Idx) (q : dot_S100000x1024_S1024x64_S100000x64_1_0_0_1_n_n.contr.Idx) : (dot_S100000x1024_S1024x64_S100000x64_1_0_0_1_n_n.rhsIdx i q 1).val = (i 1).val := by
  unfold DotDims.rhsIdx
  rw [dif_neg (show ¬(1 : Fin S1024x64.rank) ∈ dot_S100000x1024_S1024x64_S100000x64_1_0_0_1_n_n.rhsBatch by decide), dif_pos (show (1 : Fin S1024x64.rank) ∈ dot_S100000x1024_S1024x64_S100000x64_1_0_0_1_n_n.rhsNonContracting by decide)]
  rfl

/-- The host's product of a [100000, 1024] array and a [1024, 64] array, at an entry: row times column. -/
theorem dot1_apply (l : FVec Ideal S100000x1024 .f32) (r : FVec Ideal S1024x64 .f32) (i : S100000x64.Idx) :
    Host.dotGeneral (F := Ideal) dot_S100000x1024_S1024x64_S100000x64_1_0_0_1_n_n none l r i = rowsTimes (a := 100000) (k := 1024) (b := 64) l r i := by
  simp only [Host.dotGeneral]
  exact dotGeneral_apply dot_S100000x1024_S1024x64_S100000x64_1_0_0_1_n_n rfl rfl d1_lhs_0 d1_lhs_1 d1_rhs_0 d1_rhs_1 none _ l r i

/-! ## [100000, 64] × [64, 32] -/

theorem d2_lhs_0 (i : S100000x32.Idx) (q : dot_S100000x64_S64x32_S100000x32_1_0_0_1_n_n.contr.Idx) : (dot_S100000x64_S64x32_S100000x32_1_0_0_1_n_n.lhsIdx i q 0).val = (i 0).val := by
  unfold DotDims.lhsIdx
  rw [dif_neg (show ¬(0 : Fin S100000x64.rank) ∈ dot_S100000x64_S64x32_S100000x32_1_0_0_1_n_n.lhsBatch by decide), dif_pos (show (0 : Fin S100000x64.rank) ∈ dot_S100000x64_S64x32_S100000x32_1_0_0_1_n_n.lhsNonContracting by decide)]
  rfl
theorem d2_lhs_1 (i : S100000x32.Idx) (q : dot_S100000x64_S64x32_S100000x32_1_0_0_1_n_n.contr.Idx) : (dot_S100000x64_S64x32_S100000x32_1_0_0_1_n_n.lhsIdx i q 1).val = (q ⟨0, by decide⟩).val :=
  dot_S100000x64_S64x32_S100000x32_1_0_0_1_n_n.lhsIdx_val_of_single rfl i q
theorem d2_rhs_0 (i : S100000x32.Idx) (q : dot_S100000x64_S64x32_S100000x32_1_0_0_1_n_n.contr.Idx) : (dot_S100000x64_S64x32_S100000x32_1_0_0_1_n_n.rhsIdx i q 0).val = (q ⟨0, by decide⟩).val :=
  dot_S100000x64_S64x32_S100000x32_1_0_0_1_n_n.rhsIdx_val_of_single rfl i q
theorem d2_rhs_1 (i : S100000x32.Idx) (q : dot_S100000x64_S64x32_S100000x32_1_0_0_1_n_n.contr.Idx) : (dot_S100000x64_S64x32_S100000x32_1_0_0_1_n_n.rhsIdx i q 1).val = (i 1).val := by
  unfold DotDims.rhsIdx
  rw [dif_neg (show ¬(1 : Fin S64x32.rank) ∈ dot_S100000x64_S64x32_S100000x32_1_0_0_1_n_n.rhsBatch by decide), dif_pos (show (1 : Fin S64x32.rank) ∈ dot_S100000x64_S64x32_S100000x32_1_0_0_1_n_n.rhsNonContracting by decide)]
  rfl

/-- The host's product of a [100000, 64] array and a [64, 32] array, at an entry: row times column. -/
theorem dot2_apply (l : FVec Ideal S100000x64 .f32) (r : FVec Ideal S64x32 .f32) (i : S100000x32.Idx) :
    Host.dotGeneral (F := Ideal) dot_S100000x64_S64x32_S100000x32_1_0_0_1_n_n none l r i = rowsTimes (a := 100000) (k := 64) (b := 32) l r i := by
  simp only [Host.dotGeneral]
  exact dotGeneral_apply dot_S100000x64_S64x32_S100000x32_1_0_0_1_n_n rfl rfl d2_lhs_0 d2_lhs_1 d2_rhs_0 d2_rhs_1 none _ l r i

/-! ## [100000, 32] × [32, 64] -/

theorem d3_lhs_0 (i : S100000x64.Idx) (q : dot_S100000x32_S32x64_S100000x64_1_0_0_1_n_n.contr.Idx) : (dot_S100000x32_S32x64_S100000x64_1_0_0_1_n_n.lhsIdx i q 0).val = (i 0).val := by
  unfold DotDims.lhsIdx
  rw [dif_neg (show ¬(0 : Fin S100000x32.rank) ∈ dot_S100000x32_S32x64_S100000x64_1_0_0_1_n_n.lhsBatch by decide), dif_pos (show (0 : Fin S100000x32.rank) ∈ dot_S100000x32_S32x64_S100000x64_1_0_0_1_n_n.lhsNonContracting by decide)]
  rfl
theorem d3_lhs_1 (i : S100000x64.Idx) (q : dot_S100000x32_S32x64_S100000x64_1_0_0_1_n_n.contr.Idx) : (dot_S100000x32_S32x64_S100000x64_1_0_0_1_n_n.lhsIdx i q 1).val = (q ⟨0, by decide⟩).val :=
  dot_S100000x32_S32x64_S100000x64_1_0_0_1_n_n.lhsIdx_val_of_single rfl i q
theorem d3_rhs_0 (i : S100000x64.Idx) (q : dot_S100000x32_S32x64_S100000x64_1_0_0_1_n_n.contr.Idx) : (dot_S100000x32_S32x64_S100000x64_1_0_0_1_n_n.rhsIdx i q 0).val = (q ⟨0, by decide⟩).val :=
  dot_S100000x32_S32x64_S100000x64_1_0_0_1_n_n.rhsIdx_val_of_single rfl i q
theorem d3_rhs_1 (i : S100000x64.Idx) (q : dot_S100000x32_S32x64_S100000x64_1_0_0_1_n_n.contr.Idx) : (dot_S100000x32_S32x64_S100000x64_1_0_0_1_n_n.rhsIdx i q 1).val = (i 1).val := by
  unfold DotDims.rhsIdx
  rw [dif_neg (show ¬(1 : Fin S32x64.rank) ∈ dot_S100000x32_S32x64_S100000x64_1_0_0_1_n_n.rhsBatch by decide), dif_pos (show (1 : Fin S32x64.rank) ∈ dot_S100000x32_S32x64_S100000x64_1_0_0_1_n_n.rhsNonContracting by decide)]
  rfl

/-- The host's product of a [100000, 32] array and a [32, 64] array, at an entry: row times column. -/
theorem dot3_apply (l : FVec Ideal S100000x32 .f32) (r : FVec Ideal S32x64 .f32) (i : S100000x64.Idx) :
    Host.dotGeneral (F := Ideal) dot_S100000x32_S32x64_S100000x64_1_0_0_1_n_n none l r i = rowsTimes (a := 100000) (k := 32) (b := 64) l r i := by
  simp only [Host.dotGeneral]
  exact dotGeneral_apply dot_S100000x32_S32x64_S100000x64_1_0_0_1_n_n rfl rfl d3_lhs_0 d3_lhs_1 d3_rhs_0 d3_rhs_1 none _ l r i

/-! ## [100000, 64] × [64, 1024] -/

theorem d4_lhs_0 (i : S100000x1024.Idx) (q : dot_S100000x64_S64x1024_S100000x1024_1_0_0_1_n_n.contr.Idx) : (dot_S100000x64_S64x1024_S100000x1024_1_0_0_1_n_n.lhsIdx i q 0).val = (i 0).val := by
  unfold DotDims.lhsIdx
  rw [dif_neg (show ¬(0 : Fin S100000x64.rank) ∈ dot_S100000x64_S64x1024_S100000x1024_1_0_0_1_n_n.lhsBatch by decide), dif_pos (show (0 : Fin S100000x64.rank) ∈ dot_S100000x64_S64x1024_S100000x1024_1_0_0_1_n_n.lhsNonContracting by decide)]
  rfl
theorem d4_lhs_1 (i : S100000x1024.Idx) (q : dot_S100000x64_S64x1024_S100000x1024_1_0_0_1_n_n.contr.Idx) : (dot_S100000x64_S64x1024_S100000x1024_1_0_0_1_n_n.lhsIdx i q 1).val = (q ⟨0, by decide⟩).val :=
  dot_S100000x64_S64x1024_S100000x1024_1_0_0_1_n_n.lhsIdx_val_of_single rfl i q
theorem d4_rhs_0 (i : S100000x1024.Idx) (q : dot_S100000x64_S64x1024_S100000x1024_1_0_0_1_n_n.contr.Idx) : (dot_S100000x64_S64x1024_S100000x1024_1_0_0_1_n_n.rhsIdx i q 0).val = (q ⟨0, by decide⟩).val :=
  dot_S100000x64_S64x1024_S100000x1024_1_0_0_1_n_n.rhsIdx_val_of_single rfl i q
theorem d4_rhs_1 (i : S100000x1024.Idx) (q : dot_S100000x64_S64x1024_S100000x1024_1_0_0_1_n_n.contr.Idx) : (dot_S100000x64_S64x1024_S100000x1024_1_0_0_1_n_n.rhsIdx i q 1).val = (i 1).val := by
  unfold DotDims.rhsIdx
  rw [dif_neg (show ¬(1 : Fin S64x1024.rank) ∈ dot_S100000x64_S64x1024_S100000x1024_1_0_0_1_n_n.rhsBatch by decide), dif_pos (show (1 : Fin S64x1024.rank) ∈ dot_S100000x64_S64x1024_S100000x1024_1_0_0_1_n_n.rhsNonContracting by decide)]
  rfl

/-- The host's product of a [100000, 64] array and a [64, 1024] array, at an entry: row times column. -/
theorem dot4_apply (l : FVec Ideal S100000x64 .f32) (r : FVec Ideal S64x1024 .f32) (i : S100000x1024.Idx) :
    Host.dotGeneral (F := Ideal) dot_S100000x64_S64x1024_S100000x1024_1_0_0_1_n_n none l r i = rowsTimes (a := 100000) (k := 64) (b := 1024) l r i := by
  simp only [Host.dotGeneral]
  exact dotGeneral_apply dot_S100000x64_S64x1024_S100000x1024_1_0_0_1_n_n rfl rfl d4_lhs_0 d4_lhs_1 d4_rhs_0 d4_rhs_1 none _ l r i

end Cert.ReferenceIdeal.Dots

end
-- ==== Proof.RefLayers.lean ====
/-
  The reference's four dense stages in the kernel's words.  x · Wg1 and h · Wg2 are the matrix product `rowsTimes` of
  their operands; relu (z · Wf1 + bf1) and relu (d · Wf2 + bf2) are `rowBiasRelu` of the product and of the bias
  vector laid out as one row: the reference broadcasts the vector [b] to [1, b] and then to every row, so entry (r, c)
  of the broadcast is the vector at c, which is entry (0, c) of the vector reshaped to [1, b].
-/
import proofs.«112977_j38070590112103_1_alg».proof.Proof.RefReadP
import proofs.«112977_j38070590112103_1_alg».proof.Proof.RefDots
import proofs.«112977_j38070590112103_1_alg».proof.Proof.LibRowBias
import Idealize.ShloMosaic.Lib.ValueLayout

noncomputable section

namespace Cert.ReferenceIdeal.Layers

open Idealize.ShloMosaic Idealize.ShloMosaic.ValueIdx
open Cert.ReferenceIdeal Cert.ReferenceIdeal.Gen Cert.ReferenceIdeal.ReadP Cert.ReferenceIdeal.Dots
open Cert.Lib.PlainDot Cert.Lib.RowBias

/-- x · Wg1. -/
theorem v30_eq (x0 : FVec Ideal S100000x1024 .f32) (x2 : FVec Ideal S1024x64 .f32) :
    val_main_v30 (F := Ideal) x0 x2 = rowsTimes (a := 100000) (k := 1024) (b := 64) x0 x2 :=
  funext fun i => by unfold val_main_v30; exact dot1_apply x0 x2 i

/-- h · Wg2, h the first layer's output. -/
theorem v74_eq (x0 : FVec Ideal S100000x1024 .f32) (x1 : IVec S2x1600000 32) (x2 : FVec Ideal S1024x64 .f32) (x3 : FVec Ideal S64 .f32)
    (x4 : FVec Ideal S64x32 .f32) :
    val_main_v74 (F := Ideal) x0 x1 x2 x3 x4
      = rowsTimes (a := 100000) (k := 64) (b := 32) (val_main_v47 (F := Ideal) x0 x1 x2 x3) x4 :=
  funext fun i => by unfold val_main_v74; exact dot2_apply _ x4 i

/-- A bias vector [64] added to every row, positive part: the one-row form. -/
theorem dense64 (P : FVec Ideal S100000x64 .f32) (x7 : FVec Ideal S64 .f32) (h : (⟨1, ![64]⟩ : Shape).ShapeCasts ⟨2, ![1, 64]⟩) :
    maximumf (addf P (val_main_v93 (F := Ideal) x7)) (val_main_call3_v0 (F := Ideal))
      = rowBiasRelu (a := 100000) (b := 64) P (shapeCast ⟨2, ![1, 64]⟩ x7 h) := by
  funext i
  obtain ⟨r, q, rfl⟩ : ∃ (r : Fin 100000) (q : Fin 64), i = ix2 r q := ⟨i 0, i 1, eq_ix2 i⟩
  have hs := shapeCast_a_1a_apply x7 h (0 : Fin 1) q
  have hb : val_main_v93 (F := Ideal) x7 (ix2 r q) = shapeCast ⟨2, ![1, 64]⟩ x7 h (ix2 (0 : Fin 1) q) := by
    rw [val_main_v93_apply, val_main_v92_apply, hs]
    exact congrArg x7 (funext fun a => match a with | ⟨0, _⟩ => rfl)
  have hzero : val_main_call3_v0 (F := Ideal) (ix2 r q) = Scalar.ofBits (F := Ideal) .f32 0x00000000#32 := by
    rw [val_main_call3_v0_apply, val_main_call3_cst_apply]
  unfold rowBiasRelu
  show FloatOps.maximumf (FloatOps.addf (P (ix2 r q)) (val_main_v93 (F := Ideal) x7 (ix2 r q))) (val_main_call3_v0 (F := Ideal) (ix2 r q)) = _
  rw [hb, hzero]

/-- relu (z · Wf1 + bf1), z the encoder's output. -/
theorem v95_eq (x0 : FVec Ideal S100000x1024 .f32) (x1 : IVec S2x1600000 32) (x2 : FVec Ideal S1024x64 .f32) (x3 : FVec Ideal S64 .f32)
    (x4 : FVec Ideal S64x32 .f32) (x5 : FVec Ideal S32 .f32) (x6 : FVec Ideal S32x64 .f32) (x7 : FVec Ideal S64 .f32)
    (h : (⟨1, ![64]⟩ : Shape).ShapeCasts ⟨2, ![1, 64]⟩) :
    val_main_v95 (F := Ideal) x0 x1 x2 x3 x4 x5 x6 x7
      = rowBiasRelu (a := 100000) (b := 64) (rowsTimes (a := 100000) (k := 32) (b := 64) (val_main_v90 (F := Ideal) x0 x1 x2 x3 x4 x5) x6)
          (shapeCast ⟨2, ![1, 64]⟩ x7 h) := by
  have e : val_main_v91 (F := Ideal) x0 x1 x2 x3 x4 x5 x6
      = rowsTimes (a := 100000) (k := 32) (b := 64) (val_main_v90 (F := Ideal) x0 x1 x2 x3 x4 x5) x6 :=
    funext fun i => by unfold val_main_v91; exact dot3_apply _ x6 i
  unfold val_main_v95 val_main_v94
  rw [e]
  exact dense64 _ x7 h

/-- A bias vector [1024] added to every row, positive part: the one-row form. -/
theorem dense1024 (P : FVec Ideal S100000x1024 .f32) (x9 : FVec Ideal S1024 .f32) (h : (⟨1, ![1024]⟩ : Shape).ShapeCasts ⟨2, ![1, 1024]⟩) :
    maximumf (addf P (val_main_v98 (F := Ideal) x9)) (val_main_call4_v0 (F := Ideal))
      = rowBiasRelu (a := 100000) (b := 1024) P (shapeCast ⟨2, ![1, 1024]⟩ x9 h) := by
  funext i
  obtain ⟨r, q, rfl⟩ : ∃ (r : Fin 100000) (q : Fin 1024), i = ix2 r q := ⟨i 0, i 1, eq_ix2 i⟩
  have hs := shapeCast_a_1a_apply x9 h (0 : Fin 1) q
  have hb : val_main_v98 (F := Ideal) x9 (ix2 r q) = shapeCast ⟨2, ![1, 1024]⟩ x9 h (ix2 (0 : Fin 1) q) := by
    rw [val_main_v98_apply, val_main_v97_apply, hs]
    exact congrArg x9 (funext fun a => match a with | ⟨0, _⟩ => rfl)
  have hzero : val_main_call4_v0 (F := Ideal) (ix2 r q) = Scalar.ofBits (F := Ideal) .f32 0x00000000#32 := by
    rw [val_main_call4_v0_apply, val_main_call4_cst_apply]
  unfold rowBiasRelu
  show FloatOps.maximumf (FloatOps.addf (P (ix2 r q)) (val_main_v98 (F := Ideal) x9 (ix2 r q))) (val_main_call4_v0 (F := Ideal) (ix2 r q)) = _
  rw [hb, hzero]

/-- relu (d · Wf2 + bf2), d the decoder's hidden layer: the reference's result. -/
theorem v100_eq (x0 : FVec Ideal S100000x1024 .f32) (x1 : IVec S2x1600000 32) (x2 : FVec Ideal S1024x64 .f32) (x3 : FVec Ideal S64 .f32)
    (x4 : FVec Ideal S64x32 .f32) (x5 : FVec Ideal S32 .f32) (x6 : FVec Ideal S32x64 .f32) (x7 : FVec Ideal S64 .f32)
    (x8 : FVec Ideal S64x1024 .f32) (x9 : FVec Ideal S1024 .f32) (h : (⟨1, ![1024]⟩ : Shape).ShapeCasts ⟨2, ![1, 1024]⟩) :
    val_main_v100 (F := Ideal) x0 x1 x2 x3 x4 x5 x6 x7 x8 x9
      = rowBiasRelu (a := 100000) (b := 1024)
          (rowsTimes (a := 100000) (k := 64) (b := 1024) (val_main_v95 (F := Ideal) x0 x1 x2 x3 x4 x5 x6 x7) x8)
          (shapeCast ⟨2, ![1, 1024]⟩ x9 h) := by
  have e : val_main_v96 (F := Ideal) x0 x1 x2 x3 x4 x5 x6 x7 x8
      = rowsTimes (a := 100000) (k := 64) (b := 1024) (val_main_v95 (F := Ideal) x0 x1 x2 x3 x4 x5 x6 x7) x8 :=
    funext fun i => by unfold val_main_v96; exact dot4_apply _ x8 i
  unfold val_main_v100 val_main_v99
  rw [e]
  exact dense1024 _ x9 h

end Cert.ReferenceIdeal.Layers

end
-- ==== Proof.KernelValue.lean ====
/-
  The idealized kernel's result, read off its run.  The run leaves the result array at what the fourth region's
  write-backs fold to.  Going back through the program: the fourth region's array is `rowBiasRelu` of the product of
  the third region's array with Wf2 and of bf2 as one row; the third region's is `rowBiasRelu` of the product of the
  encoder's output with Wf1 and of bf1 as one row; the encoder's output is the host's normalised gather and
  segment sum of the second region's product h · Wg2 plus bg2; h is the positive part of the same aggregation of the
  first region's product x · Wg1 plus bg1.  Each host stretch is the reference's own sequence of operations, and each
  region's array is the reference's `dot_general` (with its bias and positive part, in the decoder) entry by entry, so
  the result is the reference's last stage applied to the kernel's arguments.
-/
import proofs.«112977_j38070590112103_1_alg».proof.Proof.KernelFold
import proofs.«112977_j38070590112103_1_alg».proof.Proof.Layer1Blocks
import proofs.«112977_j38070590112103_1_alg».proof.Proof.Layer2Blocks
import proofs.«112977_j38070590112103_1_alg».proof.Proof.Decoder1Blocks
import proofs.«112977_j38070590112103_1_alg».proof.Proof.Decoder2Blocks
import proofs.«112977_j38070590112103_1_alg».proof.Proof.RefLayers

noncomputable section

namespace Cert.KernelIdeal.Value

open Idealize.ShloMosaic Idealize.ShloMosaic.TcCoe Idealize.SL.Sem
open Cert.KernelIdeal Cert.KernelIdeal.Gen Cert.KernelIdeal.Fold
open Cert.Lib.PlainDot Cert.Lib.RowBias
open Cert.ReferenceIdeal.ReadP Cert.ReferenceIdeal.Layers

variable (m : (ℓ : Loc nD τ sig) → Buf (Elt Ideal) ℓ) (ρ : Dev nD → PrngReg)

/-- The argument arrays on core `c`. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)
abbrev a8 (c : Dev nD) := m ((c.tc : Thread nD τ).loc main_arg8)
abbrev a9 (c : Dev nD) := m ((c.tc : Thread nD τ).loc main_arg9)

/-- After the first region: x · Wg1. -/
theorem after_layer1 (c : Dev nD) :
    W4 m ρ c (Proc.devRef .tc main_v30) = val_main_v30 (F := Ideal) (a0 m c) (a2 m c) := by
  refine (W4_v30 m ρ c).trans ?_
  refine (Layer1.array_eq (V3 m ρ) c).trans ?_
  refine (congrArg₂ (rowsTimes (a := 100000) (k := 1024) (b := 64)) (V3_main_arg0 m ρ c) (V3_main_arg2 m ρ c)).trans ?_
  exact (v30_eq _ _).symm

/-- After the second region: h · Wg2. -/
theorem after_layer2 (c : Dev nD) :
    W7 m ρ c (Proc.devRef .tc main_v48) = val_main_v74 (F := Ideal) (a0 m c) (a1 m c) (a2 m c) (a3 m c) (a4 m c) := by
  refine (W7_v48 m ρ c).trans ?_
  refine (Layer2.array_eq (V6 m ρ) c).trans ?_
  refine (congrArg₂ (rowsTimes (a := 100000) (k := 64) (b := 32)) (V6_v47 m ρ c (after_layer1 m ρ c)) (V6_main_arg4 m ρ c)).trans ?_
  exact (v74_eq _ _ _ _ _).symm

/-- After the third region: relu (z · Wf1 + bf1). -/
theorem after_decoder1 (c : Dev nD) :
    W9 m ρ c (Proc.devRef .tc main_v66)
      = val_main_v95 (F := Ideal) (a0 m c) (a1 m c) (a2 m c) (a3 m c) (a4 m c) (a5 m c) (a6 m c) (a7 m c) := by
  refine (W9_v66 m ρ c).trans ?_
  refine (Decoder1.array_eq (V8 m ρ) c).trans ?_
  have e : rowsTimes (a := 100000) (k := 32) (b := 64) (V8 m ρ c main_v64) (V8 m ρ c main_arg6)
      = rowsTimes (a := 100000) (k := 32) (b := 64) (val_main_v90 (F := Ideal) (a0 m c) (a1 m c) (a2 m c) (a3 m c) (a4 m c) (a5 m c)) (a6 m c) :=
    congrArg₂ (rowsTimes (a := 100000) (k := 32) (b := 64)) (V8_v64 m ρ c (after_layer2 m ρ c)) (V8_main_arg6 m ρ c)
  refine (congrArg₂ (rowBiasRelu (a := 100000) (b := 64)) e (V8_v65 m ρ c)).trans ?_
  exact (v95_eq _ _ _ _ _ _ _ _ _).symm

/-- After the fourth region: relu (d · Wf2 + bf2), the reference's last stage of the kernel's arguments. -/
theorem after_decoder2 (c : Dev nD) :
    W11 m ρ c (Proc.devRef .tc main_v68)
      = val_main_v100 (F := Ideal) (a0 m c) (a1 m c) (a2 m c) (a3 m c) (a4 m c) (a5 m c) (a6 m c) (a7 m c) (a8 m c) (a9 m c) := by
  refine (W11_v68 m ρ c).trans ?_
  refine (Decoder2.array_eq (V10 m ρ) c).trans ?_
  have e : rowsTimes (a := 100000) (k := 64) (b := 1024) (V10 m ρ c main_v66) (V10 m ρ c main_arg8)
      = rowsTimes (a := 100000) (k := 64) (b := 1024) (val_main_v95 (F := Ideal) (a0 m c) (a1 m c) (a2 m c) (a3 m c) (a4 m c) (a5 m c) (a6 m c) (a7 m c)) (a8 m c) :=
    congrArg₂ (rowsTimes (a := 100000) (k := 64) (b := 1024)) (V10_v66 m ρ c _ (after_decoder1 m ρ c)) (V10_main_arg8 m ρ c)
  refine (congrArg₂ (rowBiasRelu (a := 100000) (b := 1024)) e (V10_v67 m ρ c)).trans ?_
  exact (v100_eq _ _ _ _ _ _ _ _ _ _ _).symm

/-- The run, read: the result array at the reference's last stage of the arguments, the arguments unchanged. -/
theorem run : θ_run defs (onTc (τ := τ) (main (F := Ideal))) ⟨m, fun _ => 0, ρ⟩ (fun r => ∀ c : Dev nD,
      r.2.mem ((c.tc : Thread nD τ).loc main_v68)
        = val_main_v100 (F := Ideal) (a0 m c) (a1 m c) (a2 m c) (a3 m c) (a4 m c) (a5 m c) (a6 m c) (a7 m c) (a8 m c) (a9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (after_decoder2 m ρ c), (h c).2⟩) (run_out (F := Ideal) m ρ)

end Cert.KernelIdeal.Value

end
-- ==== Proof.lean ====
/-
  A two-layer graph convolution encoder with a two-layer dense decoder, as four tiled matrix-unit kernels among host
  gathers and segment sums, against the plain jnp reference, on the extended reals.

  Both programs take x : [100000, 1024], the edge list, and the eight weight arrays.  They add the self loops, count
  the in-degrees by a scatter-add of ones, take dinv = deg^(-1/2) where deg > 0 and 0 elsewhere, and weigh edge e by
  dinv[src e] · dinv[dst e]; a layer multiplies the node features by its weight matrix, gathers the source rows,
  scales them by the edge weights, scatter-adds them into the destination rows and adds the bias.  The encoder is
  relu of the first layer followed by the second; the decoder is relu (z · Wf1 + bf1) followed by relu (d · Wf2 + bf2).
  The kernel computes the four matrix products in blocks of 2000 rows with operands narrowed to bf16 (the identity on
  the extended reals) into a zero accumulator, and keeps every gather, scatter and elementwise step on the host, where
  they are the reference's own operations (the reference computes the edge weights once per layer, the kernel once;
  the two copies are the same function of the edge list).  So the claim reduces to: each region's result array is the
  reference's `dot_general` (plus bias row and positive part in the decoder) of the arrays the region is entered with,
  entry by entry — a sum over the contracted axis in both — and the blocks cover all rows.  No law beyond
  re-indexing that sum is used; the precondition is never opened.
-/
import proofs.«112977_j38070590112103_1_alg».proof.Defs
import proofs.«112977_j38070590112103_1_alg».proof.Proof.Gen.Kernel
import proofs.«112977_j38070590112103_1_alg».proof.Proof.Gen.Kernel.Frame
import proofs.«112977_j38070590112103_1_alg».proof.Proof.Gen.KernelIdeal
import proofs.«112977_j38070590112103_1_alg».proof.Proof.Gen.KernelIdeal.Frame
import proofs.«112977_j38070590112103_1_alg».proof.Proof.Gen.ReferenceIdeal
import proofs.«112977_j38070590112103_1_alg».proof.Proof.Gen.Pre_finite_inputs
import proofs.«112977_j38070590112103_1_alg».proof.Proof.RefRunP
import proofs.«112977_j38070590112103_1_alg».proof.Proof.RefReadP
import proofs.«112977_j38070590112103_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the reference's last stage of the (agreeing) arguments in the result array. -/
theorem algebraic : Cert.algebraic_KernelIdeal_ReferenceIdeal := by
  intro m ρ m' ρ' _ hagree
  refine ⟨fun c => Cert.ReferenceIdeal.ReadP.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Value.run m ρ, ?_⟩
  refine (θ_run Cert.ReferenceIdeal.defs _ _).mono (fun _ h c => ⟨(h c).1.trans ?_, (h c).2⟩) (Cert.ReferenceIdeal.ValueP.run (F := Ideal) m' ρ')
  obtain ⟨h0, h1, h2, h3, h4, h5, h6, h7, h8, h9⟩ := hagree c
  rw [Cert.ReferenceIdeal.ReadP.val_main_v100_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
